-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part6 {F : FTy → Type} [FloatOps F] (main_v98 : IVec S_ 1) (main_v101 : IVec S32 1) (main_c_39 : IVec S_ 1) : IVec S_ 1 :=
  let main_v102 : IVec S_ 1 := (fun x v => Host.reduce IntOp.andi x v reducesTo_S32_S_d0 h_S_) main_v101 main_c_39
  let main_v103 : IVec S_ 1 := andi main_v98 main_v102
  main_v103

def fn_part5 {F : FTy → Type} [FloatOps F] (main_arg20 : FVec F S64 .f32) (main_arg21 : FVec F S64x32 .f32) (main_arg22 : FVec F S32 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x32 .f32 := Host.absf main_arg21
  let main_cst_36 : FVec F S_ .f32 := constant S_ .f32 0x7F800000#32
  let main_v95 : FVec F S64x32 .f32 := broadcastInDim S64x32 ![] bcast_S_S64x32 main_cst_36
  let main_v96 : IVec S64x32 1 := cmpf .olt main_v94 main_v95
  let main_c_37 : IVec S_ 1 := constantI S_ 1 1#1
  let main_v97 : IVec S_ 1 := (fun x v => Host.reduce IntOp.andi x v reducesTo_S64x32_S_d0_1 h_S_) main_v96 main_c_37
  let main_v98 : IVec S_ 1 := andi main_v93 main_v97
  let main_v99 : FVec F S32 .f32 := Host.absf main_arg22
  let main_cst_38 : FVec F S_ .f32 := constant S_ .f32 0x7F800000#32
  let main_v100 : FVec F S32 .f32 := broadcastInDim S32 ![] bcast_S_S32 main_cst_38
  let main_v101 : IVec S32 1 := cmpf .olt main_v99 main_v100
  let main_c_39 : IVec S_ 1 := constantI S_ 1 1#1
  fn_part6 (F := F) main_v98 main_v101 main_c_39

def fn_part4 {F : FTy → Type} [FloatOps F] (main_arg16 : FVec F S64 .f32) (main_arg17 : FVec F S64 .f32) (main_arg18 : FVec F S64 .f32) (main_arg19 : FVec F S64x64 .f32) (main_arg20 : FVec F S64 .f32) (main_arg21 : FVec F S64x32 .f32) (main_arg22 : FVec F S32 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S64x64 .f32) (main_arg14 : FVec F S64 .f32) (main_arg15 : FVec F S64 .f32) (main_arg16 : FVec F S64 .f32) (main_arg17 : FVec F S64 .f32) (main_arg18 : FVec F S64 .f32) (main_arg19 : FVec F S64x64 .f32) (main_arg20 : FVec F S64 .f32) (main_arg21 : FVec F S64x32 .f32) (main_arg22 : FVec F S32 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_arg21 main_arg22 main_v63 main_v67

def fn_part2 {F : FTy → Type} [FloatOps F] (main_arg9 : FVec F S64 .f32) (main_arg10 : FVec F S64 .f32) (main_arg11 : FVec F S64x64 .f32) (main_arg12 : FVec F S64 .f32) (main_arg13 : FVec F S64x64 .f32) (main_arg14 : FVec F S64 .f32) (main_arg15 : FVec F S64 .f32) (main_arg16 : FVec F S64 .f32) (main_arg17 : FVec F S64 .f32) (main_arg18 : FVec F S64 .f32) (main_arg19 : FVec F S64x64 .f32) (main_arg20 : FVec F S64 .f32) (main_arg21 : FVec F S64x32 .f32) (main_arg22 : FVec F S32 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S64 .f32) (main_arg7 : FVec F S64 .f32) (main_arg8 : FVec F S64 .f32) (main_arg9 : FVec F S64 .f32) (main_arg10 : FVec F S64 .f32) (main_arg11 : FVec F S64x64 .f32) (main_arg12 : FVec F S64 .f32) (main_arg13 : FVec F S64x64 .f32) (main_arg14 : FVec F S64 .f32) (main_arg15 : FVec F S64 .f32) (main_arg16 : FVec F S64 .f32) (main_arg17 : FVec F S64 .f32) (main_arg18 : FVec F S64 .f32) (main_arg19 : FVec F S64x64 .f32) (main_arg20 : FVec F S64 .f32) (main_arg21 : FVec F S64x32 .f32) (main_arg22 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x64 .f32) (main_arg1 : IVec S2x1200000 32) (main_arg2 : IVec S100000 32) (main_arg3 : FVec F S64x64 .f32) (main_arg4 : FVec F S64 .f32) (main_arg5 : FVec F S64x64 .f32) (main_arg6 : FVec F S64 .f32) (main_arg7 : FVec F S64 .f32) (main_arg8 : FVec F S64 .f32) (main_arg9 : FVec F S64 .f32) (main_arg10 : FVec F S64 .f32) (main_arg11 : FVec F S64x64 .f32) (main_arg12 : FVec F S64 .f32) (main_arg13 : FVec F S64x64 .f32) (main_arg14 : FVec F S64 .f32) (main_arg15 : FVec F S64 .f32) (main_arg16 : FVec F S64 .f32) (main_arg17 : FVec F S64 .f32) (main_arg18 : FVec F S64 .f32) (main_arg19 : FVec F S64x64 .f32) (main_arg20 : FVec F S64 .f32) (main_arg21 : FVec F S64x32 .f32) (main_arg22 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S5000x64 : Shape := ⟨2, ![5000, 64]⟩
abbrev S1x64 : Shape := ⟨2, ![1, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩
abbrev S256x32 : Shape := ⟨2, ![256, 32]⟩
abbrev S1x32 : Shape := ⟨2, ![1, 32]⟩

abbrev nBuf : Space → Nat
  | .hbm => 72
  | .vmem => 34
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S64x64, .f32⟩
  | .hbm, ⟨20, _⟩ => ⟨S64, .f32⟩
  | .hbm, ⟨21, _⟩ => ⟨S64x32, .f32⟩
  | .hbm, ⟨22, _⟩ => ⟨S32, .f32⟩
  | .hbm, ⟨23, _⟩ => ⟨S1x1200000, .i32⟩
  | .hbm, ⟨24, _⟩ => ⟨S1200000, .i32⟩
  | .hbm, ⟨25, _⟩ => ⟨S1x1200000, .i32⟩
  | .hbm, ⟨26, _⟩ => ⟨S1200000, .i32⟩
  | .hbm, ⟨27, _⟩ => ⟨S_, .i32⟩
  | .hbm, ⟨28, _⟩ => ⟨S1200000, .i32⟩
  | .hbm, ⟨29, _⟩ => ⟨S1200000, .i1⟩
  | .hbm, ⟨30, _⟩ => ⟨S_, .i32⟩
  | .hbm, ⟨31, _⟩ => ⟨S1200000, .i32⟩
  | .hbm, ⟨32, _⟩ => ⟨S1200000, .i32⟩
  | .hbm, ⟨33, _⟩ => ⟨S1200000, .i32⟩
  | .hbm, ⟨34, _⟩ => ⟨S1200000x1, .i32⟩
  | .hbm, ⟨35, _⟩ => ⟨S1200000x64, .f32⟩
  | .hbm, ⟨36, _⟩ => ⟨S_, .f32⟩
  | .hbm, ⟨37, _⟩ => ⟨S100000x64, .f32⟩
  | .hbm, ⟨38, _⟩ => ⟨S1200000x1, .i32⟩
  | .hbm, ⟨39, _⟩ => ⟨S100000x64, .f32⟩
  | .hbm, ⟨40, _⟩ => ⟨S100000x64, .f32⟩
  | .hbm, ⟨41, _⟩ => ⟨S_, .i32⟩
  | .hbm, ⟨42, _⟩ => ⟨S1200000, .i32⟩
  | .hbm, ⟨43, _⟩ => ⟨S1200000, .i1⟩
  | .hbm, ⟨44, _⟩ => ⟨S_, .i32⟩
  | .hbm, ⟨45, _⟩ => ⟨S1200000, .i32⟩
  | .hbm, ⟨46, _⟩ => ⟨S1200000, .i32⟩
  | .hbm, ⟨47, _⟩ => ⟨S1200000, .i32⟩
  | .hbm, ⟨48, _⟩ => ⟨S1200000x1, .i32⟩
  | .hbm, ⟨49, _⟩ => ⟨S1200000x64, .f32⟩
  | .hbm, ⟨50, _⟩ => ⟨S_, .f32⟩
  | .hbm, ⟨51, _⟩ => ⟨S100000x64, .f32⟩
  | .hbm, ⟨52, _⟩ => ⟨S1200000x1, .i32⟩
  | .hbm, ⟨53, _⟩ => ⟨S100000x64, .f32⟩
  | .hbm, ⟨54, _⟩ => ⟨S100000x64, .f32⟩
  | .hbm, ⟨55, _⟩ => ⟨S_, .f32⟩
  | .hbm, ⟨56, _⟩ => ⟨S256x64, .f32⟩
  | .hbm, ⟨57, _⟩ => ⟨S100000x1, .i32⟩
  | .hbm, ⟨58, _⟩ => ⟨S256x64, .f32⟩
  | .hbm, ⟨59, _⟩ => ⟨S_, .f32⟩
  | .hbm, ⟨60, _⟩ => ⟨S100000, .f32⟩
  | .hbm, ⟨61, _⟩ => ⟨S_, .f32⟩
  | .hbm, ⟨62, _⟩ => ⟨S256, .f32⟩
  | .hbm, ⟨63, _⟩ => ⟨S100000x1, .i32⟩
  | .hbm, ⟨64, _⟩ => ⟨S256, .f32⟩
  | .hbm, ⟨65, _⟩ => ⟨S_, .f32⟩
  | .hbm, ⟨66, _⟩ => ⟨S256, .f32⟩
  | .hbm, ⟨67, _⟩ => ⟨S256, .f32⟩
  | .hbm, ⟨68, _⟩ => ⟨S256x1, .f32⟩
  | .hbm, ⟨69, _⟩ => ⟨S256x64, .f32⟩
  | .hbm, ⟨70, _⟩ => ⟨S256x64, .f32⟩
  | .hbm, ⟨71, _⟩ => ⟨S256x32, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S64, .f32⟩
  | .local _ .vmem, ⟨9, _⟩ => ⟨S64, .f32⟩
  | .local _ .vmem, ⟨10, _⟩ => ⟨S64, .f32⟩
  | .local _ .vmem, ⟨11, _⟩ => ⟨S64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S64, .f32⟩
  | .local _ .vmem, ⟨20, _⟩ => ⟨S64x64, .f32⟩
  | .local _ .vmem, ⟨21, _⟩ => ⟨S64, .f32⟩
  | .local _ .vmem, ⟨22, _⟩ => ⟨S64, .f32⟩
  | .local _ .vmem, ⟨23, _⟩ => ⟨S64, .f32⟩
  | .local _ .vmem, ⟨24, _⟩ => ⟨S64, .f32⟩
  | .local _ .vmem, ⟨25, _⟩ => ⟨S64, .f32⟩
  | .local _ .vmem, ⟨26, _⟩ => ⟨S5000x64, .f32⟩
  | .local _ .vmem, ⟨27, _⟩ => ⟨S5000x64, .f32⟩
  | .local _ .vmem, ⟨28, _⟩ => ⟨S256x64, .f32⟩
  | .local _ .vmem, ⟨29, _⟩ => ⟨S64x64, .f32⟩
  | .local _ .vmem, ⟨30, _⟩ => ⟨S64, .f32⟩
  | .local _ .vmem, ⟨31, _⟩ => ⟨S64x32, .f32⟩
  | .local _ .vmem, ⟨32, _⟩ => ⟨S32, .f32⟩
  | .local _ .vmem, ⟨33, _⟩ => ⟨S256x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_c_1 : Ref sig .tc := ⟨.hbm, 41, rfl⟩
abbrev main_v15 : Ref sig .tc := ⟨.hbm, 42, rfl⟩
abbrev main_v16 : Ref sig .tc := ⟨.hbm, 43, rfl⟩
abbrev main_c_2 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_3 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_4 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_5 : Ref sig .tc := ⟨.hbm, 59, rfl⟩
abbrev main_v29 : Ref sig .tc := ⟨.hbm, 60, rfl⟩
abbrev main_cst_6 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_7 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem1_0 : DmaSem sig := 29
abbrev cc2_sem2_0 : DmaSem sig := 30
abbrev cc2_sem3_0 : DmaSem sig := 31
abbrev cc2_sem4_0 : DmaSem sig := 32
abbrev cc2_sem5_0 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  bcast_S_S256x64 : S_.BroadcastsInDim S256x64 (![] : Fin 0 → Fin S256x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  inb_S256x64_S256x64_0_0 : ∀ a, (![0, 0] : Fin 2 → Nat) a + S256x64.size a ≤ S256x64.size a
  h_S256x64 : 0 < S256x64.numel
  shapeCasts_S256x64_S256x64 : S256x64.ShapeCasts S256x64
  broadcasts_S1x64_S256x64 : S1x64.Broadcasts S256x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S256x32 : S1x32.Broadcasts S256x32
  inb_S256x32_S256x32_0_0 : ∀ a, (![0, 0] : Fin 2 → Nat) a + S256x32.size a ≤ S256x32.size a
  h_S256x32 : 0 < S256x32.numel
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x64_S256x64_1_0_0_1_n_n_wf : DotDims.WF S256x64 S64x64 S256x64 [1] [0] [0] [1] [] []
  dot_S256x64_S64x32_S256x32_1_0_0_1_n_n_wf : DotDims.WF S256x64 S64x32 S256x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x64.size a ≤ S100000x64.size a
  hwx0_10 : ∀ i : grid0.Coords, EltTy.bits .f32 = 32 ∨ (Rect.block (s := S100000x64) S5000x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64.size a ≤ S64.size a
  hwx1_8 : ∀ i : grid1.Coords, EltTy.bits .f32 = 32 ∨ (Rect.block (s := S64) S64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64.size a ≤ S64.size a
  hwx1_9 : ∀ i : grid1.Coords, EltTy.bits .f32 = 32 ∨ (Rect.block (s := S64) S64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x64.size a ≤ S100000x64.size a
  hwx1_10 : ∀ i : grid1.Coords, EltTy.bits .f32 = 32 ∨ (Rect.block (s := S100000x64) S5000x64.size (cc1_transform_10 i) (hinb1_10 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x64.size a ≤ S256x64.size a
  hwx2_0 : ∀ i : grid2.Coords, EltTy.bits .f32 = 32 ∨ (Rect.block (s := S256x64) S256x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x32.size a ≤ S64x32.size a
  hwx2_3 : ∀ i : grid2.Coords, EltTy.bits .f32 = 32 ∨ (Rect.block (s := S64x32) S64x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32.size a ≤ S32.size a
  hwx2_4 : ∀ i : grid2.Coords, EltTy.bits .f32 = 32 ∨ (Rect.block (s := S32) S32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x32.size a ≤ S256x32.size a
  hwx2_5 : ∀ i : grid2.Coords, EltTy.bits .f32 = 32 ∨ (Rect.block (s := S256x32) S256x32.size (cc2_transform_5 i) (hinb2_5 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S5000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v14) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg15) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg16) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg17) S64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg18) S64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v25) S5000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v37) S256x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg19) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg20) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg21) S64x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg22) S32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S256x32.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S1x64 : Shape := ⟨2, ![1, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩
abbrev S256x32 : Shape := ⟨2, ![256, 32]⟩
abbrev S1x32 : Shape := ⟨2, ![1, 32]⟩

abbrev nBuf : Space → Nat
  | .hbm => 142
  | .vmem => 0
  | .smem => 0
  | _ => 0

abbrev hbmTy0_0 (i : Nat) : BufTy := match i % 128 with
  | 0 => ⟨S100000x64, .f32⟩
  | 1 => ⟨S2x1200000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64, .f32⟩
  | 8 => ⟨S64, .f32⟩
  | 9 => ⟨S64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64, .f32⟩
  | 16 => ⟨S64, .f32⟩
  | 17 => ⟨S64, .f32⟩
  | 18 => ⟨S64, .f32⟩
  | 19 => ⟨S64x64, .f32⟩
  | 20 => ⟨S64, .f32⟩
  | 21 => ⟨S64x32, .f32⟩
  | 22 => ⟨S32, .f32⟩
  | 23 => ⟨S1x1200000, .i32⟩
  | 24 => ⟨S1200000, .i32⟩
  | 25 => ⟨S1x1200000, .i32⟩
  | 26 => ⟨S1200000, .i32⟩
  | 27 => ⟨S_, .i32⟩
  | 28 => ⟨S1200000, .i32⟩
  | 29 => ⟨S1200000, .i1⟩
  | 30 => ⟨S_, .i32⟩
  | 31 => ⟨S1200000, .i32⟩
  | 32 => ⟨S1200000, .i32⟩
  | 33 => ⟨S1200000, .i32⟩
  | 34 => ⟨S1200000x1, .i32⟩
  | 35 => ⟨S1200000x64, .f32⟩
  | 36 => ⟨S_, .f32⟩
  | 37 => ⟨S100000x64, .f32⟩
  | 38 => ⟨S1200000x1, .i32⟩
  | 39 => ⟨S100000x64, .f32⟩
  | 40 => ⟨S100000x64, .f32⟩
  | 41 => ⟨S100000x64, .f32⟩
  | 42 => ⟨S1x64, .f32⟩
  | 43 => ⟨S100000x64, .f32⟩
  | 44 => ⟨S100000x64, .f32⟩
  | 45 => ⟨S_, .f32⟩
  | 46 => ⟨S100000x64, .f32⟩
  | 47 => ⟨S100000x64, .f32⟩
  | 48 => ⟨S100000x64, .f32⟩
  | 49 => ⟨S1x64, .f32⟩
  | 50 => ⟨S100000x64, .f32⟩
  | 51 => ⟨S100000x64, .f32⟩
  | 52 => ⟨S_, .f32⟩
  | 53 => ⟨S100000x64, .f32⟩
  | 54 => ⟨S100000x64, .f32⟩
  | 55 => ⟨S1x64, .f32⟩
  | 56 => ⟨S100000x64, .f32⟩
  | 57 => ⟨S100000x64, .f32⟩
  | 58 => ⟨S_, .f32⟩
  | 59 => ⟨S64, .f32⟩
  | 60 => ⟨S64, .f32⟩
  | 61 => ⟨S64, .f32⟩
  | 62 => ⟨S1x64, .f32⟩
  | 63 => ⟨S100000x64, .f32⟩
  | 64 => ⟨S100000x64, .f32⟩
  | 65 => ⟨S1x64, .f32⟩
  | 66 => ⟨S100000x64, .f32⟩
  | 67 => ⟨S100000x64, .f32⟩
  | 68 => ⟨S1x64, .f32⟩
  | 69 => ⟨S100000x64, .f32⟩
  | 70 => ⟨S100000x64, .f32⟩
  | 71 => ⟨S_, .i32⟩
  | 72 => ⟨S1200000, .i32⟩
  | 73 => ⟨S1200000, .i1⟩
  | 74 => ⟨S_, .i32⟩
  | 75 => ⟨S1200000, .i32⟩
  | 76 => ⟨S1200000, .i32⟩
  | 77 => ⟨S1200000, .i32⟩
  | 78 => ⟨S1200000x1, .i32⟩
  | 79 => ⟨S1200000x64, .f32⟩
  | 80 => ⟨S_, .f32⟩
  | 81 => ⟨S100000x64, .f32⟩
  | 82 => ⟨S1200000x1, .i32⟩
  | 83 => ⟨S100000x64, .f32⟩
  | 84 => ⟨S100000x64, .f32⟩
  | 85 => ⟨S100000x64, .f32⟩
  | 86 => ⟨S1x64, .f32⟩
  | 87 => ⟨S100000x64, .f32⟩
  | 88 => ⟨S100000x64, .f32⟩
  | 89 => ⟨S_, .f32⟩
  | 90 => ⟨S100000x64, .f32⟩
  | 91 => ⟨S100000x64, .f32⟩
  | 92 => ⟨S100000x64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S1x64, .f32⟩
  | 100 => ⟨S100000x64, .f32⟩
  | 101 => ⟨S100000x64, .f32⟩
  | 102 => ⟨S_, .f32⟩
  | 103 => ⟨S64, .f32⟩
  | 104 => ⟨S64, .f32⟩
  | 105 => ⟨S64, .f32⟩
  | 106 => ⟨S1x64, .f32⟩
  | 107 => ⟨S100000x64, .f32⟩
  | 108 => ⟨S100000x64, .f32⟩
  | 109 => ⟨S1x64, .f32⟩
  | 110 => ⟨S100000x64, .f32⟩
  | 111 => ⟨S100000x64, .f32⟩
  | 112 => ⟨S1x64, .f32⟩
  | 113 => ⟨S100000x64, .f32⟩
  | 114 => ⟨S100000x64, .f32⟩
  | 115 => ⟨S_, .f32⟩
  | 116 => ⟨S256x64, .f32⟩
  | 117 => ⟨S100000x1, .i32⟩
  | 118 => ⟨S256x64, .f32⟩
  | 119 => ⟨S_, .f32⟩
  | 120 => ⟨S100000, .f32⟩
  | 121 => ⟨S_, .f32⟩
  | 122 => ⟨S256, .f32⟩
  | 123 => ⟨S100000x1, .i32⟩
  | 124 => ⟨S256, .f32⟩
  | 125 => ⟨S_, .f32⟩
  | 126 => ⟨S256, .f32⟩
  | 127 => ⟨S256, .f32⟩
  | _ => ⟨S100000x64, .f32⟩

abbrev hbmTy0_1 (i : Nat) : BufTy := match i % 128 with
  | 0 => ⟨S256x1, .f32⟩
  | 1 => ⟨S256x64, .f32⟩
  | 2 => ⟨S256x64, .f32⟩
  | 3 => ⟨S256x64, .f32⟩
  | 4 => ⟨S1x64, .f32⟩
  | 5 => ⟨S256x64, .f32⟩
  | 6 => ⟨S256x64, .f32⟩
  | 7 => ⟨S_, .f32⟩
  | 8 => ⟨S256x64, .f32⟩
  | 9 => ⟨S256x64, .f32⟩
  | 10 => ⟨S256x32, .f32⟩
  | 11 => ⟨S1x32, .f32⟩
  | 12 => ⟨S256x32, .f32⟩
  | 13 => ⟨S256x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_call0_cst : Ref sig .tc := ⟨.hbm, 45, rfl⟩
abbrev main_call0_v0 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_call1_cst : Ref sig .tc := ⟨.hbm, 52, rfl⟩
abbrev main_call1_v0 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_1 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_c_2 : Ref sig .tc := ⟨.hbm, 71, rfl⟩
abbrev main_v40 : Ref sig .tc := ⟨.hbm, 72, rfl⟩
abbrev main_v41 : Ref sig .tc := ⟨.hbm, 73, rfl⟩
abbrev main_c_3 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_4 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_call2_cst : Ref sig .tc := ⟨.hbm, 89, rfl⟩
abbrev main_call2_v0 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_call3_cst : Ref sig .tc := ⟨.hbm, 96, rfl⟩
abbrev main_call3_v0 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_5 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_6 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_7 : Ref sig .tc := ⟨.hbm, 119, rfl⟩
abbrev main_v79 : Ref sig .tc := ⟨.hbm, 120, rfl⟩
abbrev main_cst_8 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_9 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_call4_cst : Ref sig .tc := ⟨.hbm, 135, rfl⟩
abbrev main_call4_v0 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S256x64 : S_.BroadcastsInDim S256x64 (![] : Fin 0 → Fin S256x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S1x64_S256x64_0_1 : S1x64.BroadcastsInDim S256x64 (![0, 1] : Fin 2 → Fin S256x64.rank)
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x64_S256x64_1_0_0_1_n_n_wf : DotDims.WF S256x64 S64x64 S256x64 [1] [0] [0] [1] [] []
  dot_S256x64_S64x32_S256x32_1_0_0_1_n_n_wf : DotDims.WF S256x64 S64x32 S256x32 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf

class Facts : Prop extends Facts₀ where

variable [Facts]
-- ==== Proof.KernelRun.lean ====
/-
  The idealized kernel's run with its result named.  @main is three pallas regions among three stretches of host
  operations; the thread's buffers at each boundary are the fold `W0 … W6` of the launch memory through the
  stretches (`StableHlo.after`) and the regions (each region's arrays at what its write-backs leave).  Every weakly
  fair execution terminates with every unscoped buffer at `W6`: in particular the result buffer, which is what
  this module adds to the frame statement, beside the arguments, unchanged.
-/
import proofs.«168609_j33930241638747_1_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents `W6` and the argument arrays as launched. -/
theorem run : θ_run defs (onTc (τ := τ) (main (F := F))) ⟨m, fun _ => 0, ρ⟩ (fun r => ∀ c : Dev nD,
      r.2.mem ((c.tc : Thread nD τ).loc main_v38) = W6 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v38 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c),
       (h c _ (mem_uc main_arg21 (by decide))).trans (W6_main_arg21 m ρ c),
       (h c _ (mem_uc main_arg22 (by decide))).trans (W6_main_arg22 m ρ c)⟩)

end Cert.KernelIdeal.NamedRun

end
-- ==== Proof.RowSpec.lean ====
/-
  One row of the network, on the extended reals.

  Every dense stage of the model acts on rows independently: row `r` of `X · W + b` is `∑ k, X[r,k] · W[k,c] + b[c]`,
  a function of row `r` of `X` alone.  So a whole GIN layer (sum with the aggregate, two dense stages each followed by
  a rectifier, then the eval-mode batch normalisation `(h − μ) · (σ² + ε)^(-1/2) · γ + β`) and the two-stage head are
  functions of one row, and a tiling of the rows into blocks cannot change them.  This module states those row
  functions once, and reads the layout operations both programs use around them (a bias vector spread over the
  rows, a scalar spread over an array, a matrix product with one contracted axis) at an index.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowSpec

open Idealize.ShloMosaic Idealize.ShloMosaic.ValueIdx

/-- The rectifier's threshold, as the word both programs print. -/
abbrev zero32 : EReal := Ideal.ofBits .f32 0x00000000#32
/-- The batch normalisation's epsilon, as the word both programs print. -/
abbrev eps32 : EReal := Ideal.ofBits .f32 0x3727C5AC#32

/-- Entry `c` of the row `t · W`. -/
def dotRow {K N : ℕ} (t : Fin K → EReal) (W : (⟨2, ![K, N]⟩ : Shape).Idx → EReal) (c : Fin N) : EReal :=
  ∑ k : Fin K, t k * W (ix2 k c)

/-- Entry `c` of the row `t · W + b`. -/
def dense {K N : ℕ} (t : Fin K → EReal) (W : (⟨2, ![K, N]⟩ : Shape).Idx → EReal) (b : (⟨1, ![N]⟩ : Shape).Idx → EReal)
    (c : Fin N) : EReal :=
  dotRow t W c + b (ix1 c)

/-- Entry `c` of a GIN layer's output row, from the row `t` (the node's features plus its neighbours' sum):
    two rectified dense stages, then the normalisation with running mean `mu` and variance `var`, scale `g`, shift `be`. -/
def ginRow (t : Fin 64 → EReal) (wa : (⟨2, ![64, 64]⟩ : Shape).Idx → EReal) (ba : (⟨1, ![64]⟩ : Shape).Idx → EReal)
    (wb : (⟨2, ![64, 64]⟩ : Shape).Idx → EReal) (bb g be mu var : (⟨1, ![64]⟩ : Shape).Idx → EReal) (c : Fin 64) : EReal :=
  ((max (dense (fun k => max (dense t wa ba k) zero32) wb bb c) zero32 - mu (ix1 c)) * Ideal.rsqrt (var (ix1 c) + eps32))
      * g (ix1 c) + be (ix1 c)

/-- Entry `c` of the head's output row, from a pooled row `t`: a rectified dense stage, then a dense stage. -/
def headRow (t : Fin 64 → EReal) (w1 : (⟨2, ![64, 64]⟩ : Shape).Idx → EReal) (b1 : (⟨1, ![64]⟩ : Shape).Idx → EReal)
    (w2 : (⟨2, ![64, 32]⟩ : Shape).Idx → EReal) (b2 : (⟨1, ![32]⟩ : Shape).Idx → EReal) (c : Fin 32) : EReal :=
  dense (fun k => max (dense t w1 b1 k) zero32) w2 b2 c

/-! ## A vector spread over the rows, read at an index -/

/-- In a kernel body: `[b]` cast to `[1, b]` and broadcast to `[a, b]` reads, at `(p, q)`, the vector at `q`. -/
theorem kernel_bias {α : Type} {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (q : Fin b) :
    broadcastTo ⟨2, ![a, b]⟩ (shapeCast ⟨2, ![1, b]⟩ v h1) h2 (ix2 p q) = v (ix1 q) :=
  (broadcastTo_1b_ab_apply _ h2 p q).trans (shapeCast_a_1a_apply v h1 0 q)

/-- On the host: `[b]` broadcast to `[1, b]` along axis 1, then to `[a, b]`, reads, at `(p, q)`, the vector at `q`. -/
theorem host_bias {α : Type} {a b : ℕ} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (hb : b ≠ 1) (p : Fin a) (q : Fin b) :
    broadcastInDim ⟨2, ![a, b]⟩ ![0, 1] h2 (broadcastInDim ⟨2, ![1, b]⟩ ![1] h1 v) (ix2 p q) = v (ix1 q) := by
  refine (broadcastInDim_apply _ h2 _ (ix2 p q) (ix2 (0 : Fin 1) q) fun ax => ?_).trans
    (broadcastInDim_apply _ h1 v (ix2 (0 : Fin 1) q) (ix1 q) fun ax => ?_)
  · match ax with
    | ⟨0, _⟩ => show 0 = if (1 : ℕ) = 1 then 0 else p.val; rw [if_pos rfl]
    | ⟨1, _⟩ => show q.val = if b = 1 then 0 else q.val; rw [if_neg hb]
  · match ax with
    | ⟨0, _⟩ => show q.val = if b = 1 then 0 else q.val; rw [if_neg hb]

/-- On the host: a scalar broadcast to any shape reads the scalar everywhere. -/
theorem host_splat {α : Type} {t : Shape} (h : (⟨0, ![]⟩ : Shape).BroadcastsInDim t ![])
    (x : (⟨0, ![]⟩ : Shape).Idx → α) (i : t.Idx) : broadcastInDim t ![] h x i = x ix0 :=
  broadcastInDim_apply _ h x i ix0 (fun a => a.elim0)

/-! ## A matrix product with one contracted axis is the textbook sum -/

/-- For dimension numbers that contract the left operand's columns with the right operand's rows, the sum over the
    contraction index is the sum over `k : Fin K` of `l[p,k] · r[k,c]`. -/
theorem dot_sum {M K N : ℕ} (D : DotDims ⟨2, ![M, K]⟩ ⟨2, ![K, N]⟩ ⟨2, ![M, N]⟩) (hr : D.contr.rank = 1)
    (hs : D.contr.size ⟨0, by omega⟩ = K)
    (h0 : ∀ i q, (D.lhsIdx i q 0).val = (i 0).val) (h1 : ∀ i q, (D.lhsIdx i q 1).val = (q ⟨0, by omega⟩).val)
    (h2 : ∀ i q, (D.rhsIdx i q 0).val = (q ⟨0, by omega⟩).val) (h3 : ∀ i q, (D.rhsIdx i q 1).val = (i 1).val)
    (l : (⟨2, ![M, K]⟩ : Shape).Idx → EReal) (r : (⟨2, ![K, N]⟩ : Shape).Idx → EReal) (p : Fin M) (c : Fin N) :
    ∑ k : D.contr.Idx, l (D.lhsIdx (ix2 p c) k) * r (D.rhsIdx (ix2 p c) k) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact h0 _ _
    | ⟨1, _⟩ => exact (h1 _ _).trans hk)
  have er : D.rhsIdx (ix2 p c) ((contrEquiv1 D K hr hs).symm k) = ix2 k c := funext fun a => Fin.ext (by
    match a with
    | ⟨0, _⟩ => exact (h2 _ _).trans hk
    | ⟨1, _⟩ => exact h3 _ _)
  rw [el, er]

/-- A kernel's `tpu.matmul` into the zero accumulator, read at `(p, c)`. -/
theorem matmul_row {M K N : ℕ} {φ₁ φ₂ : FTy} (D : DotDims ⟨2, ![M, K]⟩ ⟨2, ![K, N]⟩ ⟨2, ![M, N]⟩) (hr : D.contr.rank = 1)
    (hs : D.contr.size ⟨0, by omega⟩ = K)
    (h0 : ∀ i q, (D.lhsIdx i q 0).val = (i 0).val) (h1 : ∀ i q, (D.lhsIdx i q 1).val = (q ⟨0, by omega⟩).val)
    (h2 : ∀ i q, (D.rhsIdx i q 0).val = (q ⟨0, by omega⟩).val) (h3 : ∀ i q, (D.rhsIdx i q 1).val = (i 1).val)
    (l : FVec Ideal ⟨2, ![M, K]⟩ φ₁) (r : FVec Ideal ⟨2, ![K, N]⟩ φ₂) (p : Fin M) (c : Fin N) :
    matmul D none l r (constant (F := Ideal) ⟨2, ![M, N]⟩ .f32 0x00000000#32) (ix2 p c) = ∑ k : Fin K, l (ix2 p k) * r (ix2 k c) :=
  (Ideal.matmul_constant_zero_apply D none l r (ix2 p c)).trans (dot_sum D hr hs h0 h1 h2 h3 l r p c)

/-- The host's `dot_general`, read at `(p, c)`. -/
theorem hostdot_row {M K N : ℕ} {φ₁ φ₂ : FTy} (D : DotDims ⟨2, ![M, K]⟩ ⟨2, ![K, N]⟩ ⟨2, ![M, N]⟩) (hr : D.contr.rank = 1)
    (hs : D.contr.size ⟨0, by omega⟩ = K)
    (h0 : ∀ i q, (D.lhsIdx i q 0).val = (i 0).val) (h1 : ∀ i q, (D.lhsIdx i q 1).val = (q ⟨0, by omega⟩).val)
    (h2 : ∀ i q, (D.rhsIdx i q 0).val = (q ⟨0, by omega⟩).val) (h3 : ∀ i q, (D.rhsIdx i q 1).val = (i 1).val)
    (l : FVec Ideal ⟨2, ![M, K]⟩ φ₁) (r : FVec Ideal ⟨2, ![K, N]⟩ φ₂) (p : Fin M) (c : Fin N) :
    Host.dotGeneral D none l r (ix2 p c) = ∑ k : Fin K, l (ix2 p k) * r (ix2 k c) := by
  simp only [Host.dotGeneral]
  exact (Ideal.dotGeneral_apply D none _ l r (ix2 p c)).trans (dot_sum D hr hs h0 h1 h2 h3 l r p c)

end Cert.RowSpec

end
-- ==== Proof.KernelRows.lean ====
/-
  The three kernel bodies, read at an index.

  Each body loads whole blocks, computes, and stores one block.  Read at position `(p, q)` of the stored block, the
  value depends only on row `p` of the row-blocked inputs: for the two GIN bodies it is the layer's row function of
  `x[p,·] + agg[p,·]`, for the head body the head's row function of `pooled[p,·]`.  The casts to bf16 around the matrix
  products are the identity on extended reals, and a `tpu.matmul` into the zero accumulator is the plain sum.
-/
import proofs.«168609_j33930241638747_1_alg».proof.Proof.Gen.KernelIdeal.Skeleton
import proofs.«168609_j33930241638747_1_alg».proof.Proof.RowSpec

set_option maxRecDepth 16384

noncomputable section

namespace Cert.KernelIdeal.Rows

open Cert.KernelIdeal Cert.KernelIdeal.Gen Cert.RowSpec
open Idealize.ShloMosaic Idealize.ShloMosaic.ValueIdx

/-! ## The bodies' matrix products as sums -/

theorem d5k_l0 (i : _) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem d5k_r1 (i : _) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem d256a_l0 (i : _) (q : dot_S256x64_S64x64_S256x64_1_0_0_1_n_n.contr.Idx) : (dot_S256x64_S64x64_S256x64_1_0_0_1_n_n.lhsIdx i q 0).val = (i 0).val := by
  unfold DotDims.lhsIdx
  rw [dif_neg (show ¬(0 : Fin S256x64.rank) ∈ dot_S256x64_S64x64_S256x64_1_0_0_1_n_n.lhsBatch by decide), dif_pos (show (0 : Fin S256x64.rank) ∈ dot_S256x64_S64x64_S256x64_1_0_0_1_n_n.lhsNonContracting by decide)]
  rfl
theorem d256a_r1 (i : _) (q : dot_S256x64_S64x64_S256x64_1_0_0_1_n_n.contr.Idx) : (dot_S256x64_S64x64_S256x64_1_0_0_1_n_n.rhsIdx i q 1).val = (i 1).val := by
  unfold DotDims.rhsIdx
  rw [dif_neg (show ¬(1 : Fin S64x64.rank) ∈ dot_S256x64_S64x64_S256x64_1_0_0_1_n_n.rhsBatch by decide), dif_pos (show (1 : Fin S64x64.rank) ∈ dot_S256x64_S64x64_S256x64_1_0_0_1_n_n.rhsNonContracting by decide)]
  rfl

theorem d256b_l0 (i : _) (q : dot_S256x64_S64x32_S256x32_1_0_0_1_n_n.contr.Idx) : (dot_S256x64_S64x32_S256x32_1_0_0_1_n_n.lhsIdx i q 0).val = (i 0).val := by
  unfold DotDims.lhsIdx
  rw [dif_neg (show ¬(0 : Fin S256x64.rank) ∈ dot_S256x64_S64x32_S256x32_1_0_0_1_n_n.lhsBatch by decide), dif_pos (show (0 : Fin S256x64.rank) ∈ dot_S256x64_S64x32_S256x32_1_0_0_1_n_n.lhsNonContracting by decide)]
  rfl
theorem d256b_r1 (i : _) (q : dot_S256x64_S64x32_S256x32_1_0_0_1_n_n.contr.Idx) : (dot_S256x64_S64x32_S256x32_1_0_0_1_n_n.rhsIdx i q 1).val = (i 1).val := by
  unfold DotDims.rhsIdx
  rw [dif_neg (show ¬(1 : Fin S64x32.rank) ∈ dot_S256x64_S64x32_S256x32_1_0_0_1_n_n.rhsBatch by decide), dif_pos (show (1 : Fin S64x32.rank) ∈ dot_S256x64_S64x32_S256x32_1_0_0_1_n_n.rhsNonContracting by decide)]
  rfl

/-- A GIN body's product of a 5000-row block with a 64×64 weight, at `(p, c)`. -/
theorem mm5k {φ₁ φ₂ : FTy} (l : FVec Ideal S5000x64 φ₁) (r : FVec Ideal S64x64 φ₂) (p : Fin 5000) (c : Fin 64) :
    matmul dot_S5000x64_S64x64_S5000x64_1_0_0_1_n_n none l r (constant (F := Ideal) S5000x64 .f32 0x00000000#32) (ix2 p c)
      = ∑ k : Fin 64, l (ix2 p k) * r (ix2 k c) :=
  matmul_row dot_S5000x64_S64x64_S5000x64_1_0_0_1_n_n rfl rfl d5k_l0
    (fun i q => dot_S5000x64_S64x64_S5000x64_1_0_0_1_n_n.lhsIdx_val_of_single rfl i q)
    (fun i q => dot_S5000x64_S64x64_S5000x64_1_0_0_1_n_n.rhsIdx_val_of_single rfl i q) d5k_r1 l r p c

/-- The head body's first product, at `(p, c)`. -/
theorem mm256a {φ₁ φ₂ : FTy} (l : FVec Ideal S256x64 φ₁) (r : FVec Ideal S64x64 φ₂) (p : Fin 256) (c : Fin 64) :
    matmul dot_S256x64_S64x64_S256x64_1_0_0_1_n_n none l r (constant (F := Ideal) S256x64 .f32 0x00000000#32) (ix2 p c)
      = ∑ k : Fin 64, l (ix2 p k) * r (ix2 k c) :=
  matmul_row dot_S256x64_S64x64_S256x64_1_0_0_1_n_n rfl rfl d256a_l0
    (fun i q => dot_S256x64_S64x64_S256x64_1_0_0_1_n_n.lhsIdx_val_of_single rfl i q)
    (fun i q => dot_S256x64_S64x64_S256x64_1_0_0_1_n_n.rhsIdx_val_of_single rfl i q) d256a_r1 l r p c

/-- The head body's second product, at `(p, c)`. -/
theorem mm256b {φ₁ φ₂ : FTy} (l : FVec Ideal S256x64 φ₁) (r : FVec Ideal S64x32 φ₂) (p : Fin 256) (c : Fin 32) :
    matmul dot_S256x64_S64x32_S256x32_1_0_0_1_n_n none l r (constant (F := Ideal) S256x32 .f32 0x00000000#32) (ix2 p c)
      = ∑ k : Fin 64, l (ix2 p k) * r (ix2 k c) :=
  matmul_row dot_S256x64_S64x32_S256x32_1_0_0_1_n_n rfl rfl d256b_l0
    (fun i q => dot_S256x64_S64x32_S256x32_1_0_0_1_n_n.lhsIdx_val_of_single rfl i q)
    (fun i q => dot_S256x64_S64x32_S256x32_1_0_0_1_n_n.rhsIdx_val_of_single rfl i q) d256b_r1 l r p c

/-! ## The bodies at an index -/

/-- The first GIN body's stored block at `(p, q)`: the layer's row function of row `p` of `x + agg`. -/
theorem pay0_apply (x0 x1 : Vec Ideal S5000x64 .f32) (wa : Vec Ideal S64x64 .f32) (ba : Vec Ideal S64 .f32)
    (wb : Vec Ideal S64x64 .f32) (bb mu var g be : Vec Ideal S64 .f32) (p : Fin 5000) (q : Fin 64) :
    k0_pay1 (F := Ideal) (k0_pay2 x0 x1 wa ba wb bb mu var g) be (ix2 p q)
      = ginRow (fun j => x0 (ix2 p j) + x1 (ix2 p j)) wa ba wb bb g be mu var q := by
  unfold k0_pay1 k0_pay2
  simp only [addf_apply, mulf_apply, subf_apply, maximumf_apply, truncf_apply, broadcast_apply, kernel_bias, mm5k,
    shapeCast_self]
  rfl

/-- The second GIN body's stored block at `(p, q)`: the same row function. -/
theorem pay1_apply (x0 x1 : Vec Ideal S5000x64 .f32) (wa : Vec Ideal S64x64 .f32) (ba : Vec Ideal S64 .f32)
    (wb : Vec Ideal S64x64 .f32) (bb mu var g be : Vec Ideal S64 .f32) (p : Fin 5000) (q : Fin 64) :
    k1_pay1 (F := Ideal) (k1_pay2 x0 x1 wa ba wb bb mu var g) be (ix2 p q)
      = ginRow (fun j => x0 (ix2 p j) + x1 (ix2 p j)) wa ba wb bb g be mu var q := by
  unfold k1_pay1 k1_pay2
  simp only [addf_apply, mulf_apply, subf_apply, maximumf_apply, truncf_apply, broadcast_apply, kernel_bias, mm5k,
    shapeCast_self]
  rfl

/-- The head body's stored block at `(p, q)`: the head's row function of row `p` of the pooled features. -/
theorem pay2_apply (x0 : Vec Ideal S256x64 .f32) (w1 : Vec Ideal S64x64 .f32) (b1 : Vec Ideal S64 .f32)
    (w2 : Vec Ideal S64x32 .f32) (b2 : Vec Ideal S32 .f32) (p : Fin 256) (q : Fin 32) :
    k2_pay1 (F := Ideal) x0 w1 b1 w2 b2 (ix2 p q) = headRow (fun j => x0 (ix2 p j)) w1 b1 w2 b2 q := by
  unfold k2_pay1
  simp only [addf_apply, maximumf_apply, truncf_apply, broadcast_apply, kernel_bias, mm256a, mm256b, shapeCast_self]
  rfl

end Cert.KernelIdeal.Rows

end
-- ==== Proof.RefTerms.lean ====
/-
  The reference, as a composition of four whole-array functions, and its dense stages read row by row.

  The reference computes, with `A(h) = scatter-add over the edges' targets of the rows of h gathered at the edges' sources`:
  `h₁ = layer(x, A(x))`, `h₂ = layer(h₁, A(h₁))`, `pooled = (scatter-add of h₂'s rows over the graph ids) / max(count, 1)`,
  `out = head(pooled)`.  The gather, the two scatter-adds and the division are never opened here: the kernel applies
  the very same host operations to its own intermediate arrays, so only the dense stages `layer` and `head` are
  read at an index, where each is the row function of RowSpec applied to the row of the operand.
-/
import proofs.«168609_j33930241638747_1_alg».proof.Proof.Gen.ReferenceIdeal.Run
import proofs.«168609_j33930241638747_1_alg».proof.Proof.RowSpec

set_option maxRecDepth 16384

noncomputable section

namespace Cert.ReferenceIdeal.Terms

open Cert.ReferenceIdeal Cert.ReferenceIdeal.Gen Cert.RowSpec
open Idealize.ShloMosaic Idealize.ShloMosaic.TcCoe Idealize.ShloMosaic.ValueIdx

section Terms
variable {F : FTy → Type} [FloatOps F]

/-- A 64-vector spread over 100000 rows, as the host spells it. -/
def rows100k (v : (⟨S64, .f32⟩ : BufTy).Contents (Elt F)) : (⟨S100000x64, .f32⟩ : BufTy).Contents (Elt F) :=
  broadcastInDim S100000x64 ![0, 1] bcast_S1x64_S100000x64_0_1 (broadcastInDim S1x64 ![1] bcast_S64_S1x64_1 v)
/-- A 64-vector spread over 256 rows. -/
def rows256x64 (v : (⟨S64, .f32⟩ : BufTy).Contents (Elt F)) : (⟨S256x64, .f32⟩ : BufTy).Contents (Elt F) :=
  broadcastInDim S256x64 ![0, 1] bcast_S1x64_S256x64_0_1 (broadcastInDim S1x64 ![1] bcast_S64_S1x64_1 v)
/-- A 32-vector spread over 256 rows. -/
def rows256x32 (v : (⟨S32, .f32⟩ : BufTy).Contents (Elt F)) : (⟨S256x32, .f32⟩ : BufTy).Contents (Elt F) :=
  broadcastInDim S256x32 ![0, 1] bcast_S1x32_S256x32_0_1 (broadcastInDim S1x32 ![1] bcast_S32_S1x32_1 v)
/-- The zero array the 100000-row rectifiers compare with. -/
def zeros100k : (⟨S100000x64, .f32⟩ : BufTy).Contents (Elt F) :=
  broadcastInDim S100000x64 ![] bcast_S_S100000x64 (constant S_ .f32 0x00000000#32)
/-- The zero array the head's rectifier compares with. -/
def zeros256x64 : (⟨S256x64, .f32⟩ : BufTy).Contents (Elt F) :=
  broadcastInDim S256x64 ![] bcast_S_S256x64 (constant S_ .f32 0x00000000#32)
/-- The normalisation's epsilon as a 64-vector. -/
def epsv : (⟨S64, .f32⟩ : BufTy).Contents (Elt F) :=
  broadcastInDim S64 ![] bcast_S_S64 (constant S_ .f32 0x3727C5AC#32)

/-- The neighbour sum: rows of `x` gathered at the edges' source nodes (a negative id counted from the end) and
    added into the rows named by the edges' target nodes, from zero. -/
def agg (x : (⟨S100000x64, .f32⟩ : BufTy).Contents (Elt F)) (ei : (⟨S2x1200000, .i32⟩ : BufTy).Contents (Elt F)) : (⟨S100000x64, .f32⟩ : BufTy).Contents (Elt F) :=
  Host.scatterAdd scatter_S100000x64_S1200000x1_S1200000x64_1_0_0_1 (broadcastInDim S100000x64 ![] bcast_S_S100000x64 (constant S_ .f32 0x00000000#32)) (broadcastInDim S1200000x1 ![0] bcast_S1200000_S1200000x1_0 (shapeCast _ (extractStridedSlice S1x1200000 ![1, 0] ei slices_S2x1200000_S1x1200000_1_0) shapeCasts_S1x1200000_S1200000)) (Host.gather gather_S100000x64_S1200000x1_S1200000x64_1_0_n_n_0_1_164 x (broadcastInDim S1200000x1 ![0] bcast_S1200000_S1200000x1_0 (select (cmpi .slt (shapeCast _ (extractStridedSlice S1x1200000 ![0, 0] ei slices_S2x1200000_S1x1200000_0_0) shapeCasts_S1x1200000_S1200000) (broadcastInDim S1200000 ![] bcast_S_S1200000 (constantI S_ 32 0#32))) (addi (shapeCast _ (extractStridedSlice S1x1200000 ![0, 0] ei slices_S2x1200000_S1x1200000_0_0) shapeCasts_S1x1200000_S1200000) (broadcastInDim S1200000 ![] bcast_S_S1200000 (constantI S_ 32 100000#32))) (shapeCast _ (extractStridedSlice S1x1200000 ![0, 0] ei slices_S2x1200000_S1x1200000_0_0) shapeCasts_S1x1200000_S1200000))))

/-- One GIN layer on whole arrays, as the host computes it: `x + a`, two dense stages each followed by a rectifier,
    then the eval-mode batch normalisation. -/
def refLayer (x a : (⟨S100000x64, .f32⟩ : BufTy).Contents (Elt F)) (wa : (⟨S64x64, .f32⟩ : BufTy).Contents (Elt F)) (ba : (⟨S64, .f32⟩ : BufTy).Contents (Elt F)) (wb : (⟨S64x64, .f32⟩ : BufTy).Contents (Elt F)) (bb g be mu va : (⟨S64, .f32⟩ : BufTy).Contents (Elt F)) : (⟨S100000x64, .f32⟩ : BufTy).Contents (Elt F) :=
  addf (mulf (mulf (subf (maximumf (addf (Host.dotGeneral dot_S100000x64_S64x64_S100000x64_1_0_0_1_n_n none (maximumf (addf (Host.dotGeneral dot_S100000x64_S64x64_S100000x64_1_0_0_1_n_n none (addf x a) wa) (rows100k ba)) zeros100k) wb) (rows100k bb)) zeros100k) (rows100k mu)) (rows100k (Host.rsqrt (addf va epsv)))) (rows100k g)) (rows100k be)

/-- The mean of the rows of `h` per graph id: the scatter-added rows over the scatter-added count, at least one. -/
def pool (h : (⟨S100000x64, .f32⟩ : BufTy).Contents (Elt F)) (b : (⟨S100000, .i32⟩ : BufTy).Contents (Elt F)) : (⟨S256x64, .f32⟩ : BufTy).Contents (Elt F) :=
  Host.divf (Host.scatterAdd scatter_S256x64_S100000x1_S100000x64_1_0_0_1 (broadcastInDim S256x64 ![] bcast_S_S256x64 (constant S_ .f32 0x00000000#32)) (broadcastInDim S100000x1 ![0] bcast_S100000_S100000x1_0 b) h) (broadcastInDim S256x64 ![0, 1] bcast_S256x1_S256x64_0_1 (broadcastInDim S256x1 ![0] bcast_S256_S256x1_0 (maximumf (Host.scatterAdd scatter_S256_S100000x1_S100000_n_0_0_1 (broadcastInDim S256 ![] bcast_S_S256 (constant S_ .f32 0x00000000#32)) (broadcastInDim S100000x1 ![0] bcast_S100000_S100000x1_0 b) (broadcastInDim S100000 ![] bcast_S_S100000 (constant S_ .f32 0x3F800000#32))) (broadcastInDim S256 ![] bcast_S_S256 (constant S_ .f32 0x3F800000#32)))))

/-- The head on whole arrays, as the host computes it: a rectified dense stage, then a dense stage. -/
def refHead (p : (⟨S256x64, .f32⟩ : BufTy).Contents (Elt F)) (w1 : (⟨S64x64, .f32⟩ : BufTy).Contents (Elt F)) (b1 : (⟨S64, .f32⟩ : BufTy).Contents (Elt F))
    (w2 : (⟨S64x32, .f32⟩ : BufTy).Contents (Elt F)) (b2 : (⟨S32, .f32⟩ : BufTy).Contents (Elt F)) :
    (⟨S256x32, .f32⟩ : BufTy).Contents (Elt F) :=
  addf (Host.dotGeneral dot_S256x64_S64x32_S256x32_1_0_0_1_n_n none (maximumf (addf (Host.dotGeneral dot_S256x64_S64x64_S256x64_1_0_0_1_n_n none p w1) (rows256x64 b1)) zeros256x64) w2) (rows256x32 b2)

/-- The whole model on the argument arrays. -/
def model (x : (⟨S100000x64, .f32⟩ : BufTy).Contents (Elt F)) (ei : (⟨S2x1200000, .i32⟩ : BufTy).Contents (Elt F)) (b : (⟨S100000, .i32⟩ : BufTy).Contents (Elt F))
    (w1a : (⟨S64x64, .f32⟩ : BufTy).Contents (Elt F)) (b1a : (⟨S64, .f32⟩ : BufTy).Contents (Elt F)) (w1b : (⟨S64x64, .f32⟩ : BufTy).Contents (Elt F)) (b1b g1 be1 m1 v1 : (⟨S64, .f32⟩ : BufTy).Contents (Elt F))
    (w2a : (⟨S64x64, .f32⟩ : BufTy).Contents (Elt F)) (b2a : (⟨S64, .f32⟩ : BufTy).Contents (Elt F)) (w2b : (⟨S64x64, .f32⟩ : BufTy).Contents (Elt F)) (b2b g2 be2 m2 v2 : (⟨S64, .f32⟩ : BufTy).Contents (Elt F))
    (fw1 : (⟨S64x64, .f32⟩ : BufTy).Contents (Elt F)) (fb1 : (⟨S64, .f32⟩ : BufTy).Contents (Elt F)) (fw2 : (⟨S64x32, .f32⟩ : BufTy).Contents (Elt F)) (fb2 : (⟨S32, .f32⟩ : BufTy).Contents (Elt F)) :
    (⟨S256x32, .f32⟩ : BufTy).Contents (Elt F) :=
  refHead (pool (refLayer (refLayer x (agg x ei) w1a b1a w1b b1b g1 be1 m1 v1)
      (agg (refLayer x (agg x ei) w1a b1a w1b b1b g1 be1 m1 v1) ei) w2a b2a w2b b2b g2 be2 m2 v2) b) fw1 fb1 fw2 fb2

end Terms

/-- The reference run's result term is the model of the launch contents of the arguments. -/
theorem res_eq (m : (ℓ : Loc nD τ sig) → Buf (Elt Ideal) ℓ) (c : Dev nD) :
    Cert.ReferenceIdeal.Value.res_main_v96 (F := Ideal) m c
      = model (F := Ideal) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
          (m ((c.tc : Thread nD τ).loc main_arg19)) (m ((c.tc : Thread nD τ).loc main_arg20)) (m ((c.tc : Thread nD τ).loc main_arg21)) (m ((c.tc : Thread nD τ).loc main_arg22)) := by
  unfold Cert.ReferenceIdeal.Value.res_main_v96 model refHead pool refLayer agg
  rfl

/-! ## The dense stages, row by row -/

theorem d100k_l0 (i : _) (q : dot_S100000x64_S64x64_S100000x64_1_0_0_1_n_n.contr.Idx) : (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem d100k_r1 (i : _) (q : dot_S100000x64_S64x64_S100000x64_1_0_0_1_n_n.contr.Idx) : (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

theorem d256a_l0 (i : _) (q : dot_S256x64_S64x64_S256x64_1_0_0_1_n_n.contr.Idx) : (dot_S256x64_S64x64_S256x64_1_0_0_1_n_n.lhsIdx i q 0).val = (i 0).val := by
  unfold DotDims.lhsIdx
  rw [dif_neg (show ¬(0 : Fin S256x64.rank) ∈ dot_S256x64_S64x64_S256x64_1_0_0_1_n_n.lhsBatch by decide), dif_pos (show (0 : Fin S256x64.rank) ∈ dot_S256x64_S64x64_S256x64_1_0_0_1_n_n.lhsNonContracting by decide)]
  rfl
theorem d256a_r1 (i : _) (q : dot_S256x64_S64x64_S256x64_1_0_0_1_n_n.contr.Idx) : (dot_S256x64_S64x64_S256x64_1_0_0_1_n_n.rhsIdx i q 1).val = (i 1).val := by
  unfold DotDims.rhsIdx
  rw [dif_neg (show ¬(1 : Fin S64x64.rank) ∈ dot_S256x64_S64x64_S256x64_1_0_0_1_n_n.rhsBatch by decide), dif_pos (show (1 : Fin S64x64.rank) ∈ dot_S256x64_S64x64_S256x64_1_0_0_1_n_n.rhsNonContracting by decide)]
  rfl

theorem d256b_l0 (i : _) (q : dot_S256x64_S64x32_S256x32_1_0_0_1_n_n.contr.Idx) : (dot_S256x64_S64x32_S256x32_1_0_0_1_n_n.lhsIdx i q 0).val = (i 0).val := by
  unfold DotDims.lhsIdx
  rw [dif_neg (show ¬(0 : Fin S256x64.rank) ∈ dot_S256x64_S64x32_S256x32_1_0_0_1_n_n.lhsBatch by decide), dif_pos (show (0 : Fin S256x64.rank) ∈ dot_S256x64_S64x32_S256x32_1_0_0_1_n_n.lhsNonContracting by decide)]
  rfl
theorem d256b_r1 (i : _) (q : dot_S256x64_S64x32_S256x32_1_0_0_1_n_n.contr.Idx) : (dot_S256x64_S64x32_S256x32_1_0_0_1_n_n.rhsIdx i q 1).val = (i 1).val := by
  unfold DotDims.rhsIdx
  rw [dif_neg (show ¬(1 : Fin S64x32.rank) ∈ dot_S256x64_S64x32_S256x32_1_0_0_1_n_n.rhsBatch by decide), dif_pos (show (1 : Fin S64x32.rank) ∈ dot_S256x64_S64x32_S256x32_1_0_0_1_n_n.rhsNonContracting by decide)]
  rfl

theorem hd100k {φ₁ φ₂ : FTy} (l : FVec Ideal S100000x64 φ₁) (r : FVec Ideal S64x64 φ₂) (p : Fin 100000) (c : Fin 64) :
    Host.dotGeneral dot_S100000x64_S64x64_S100000x64_1_0_0_1_n_n none l r (ix2 p c) = ∑ k : Fin 64, l (ix2 p k) * r (ix2 k c) :=
  hostdot_row dot_S100000x64_S64x64_S100000x64_1_0_0_1_n_n rfl rfl d100k_l0
    (fun i q => dot_S100000x64_S64x64_S100000x64_1_0_0_1_n_n.lhsIdx_val_of_single rfl i q)
    (fun i q => dot_S100000x64_S64x64_S100000x64_1_0_0_1_n_n.rhsIdx_val_of_single rfl i q) d100k_r1 l r p c

theorem hd256a {φ₁ φ₂ : FTy} (l : FVec Ideal S256x64 φ₁) (r : FVec Ideal S64x64 φ₂) (p : Fin 256) (c : Fin 64) :
    Host.dotGeneral dot_S256x64_S64x64_S256x64_1_0_0_1_n_n none l r (ix2 p c) = ∑ k : Fin 64, l (ix2 p k) * r (ix2 k c) :=
  hostdot_row dot_S256x64_S64x64_S256x64_1_0_0_1_n_n rfl rfl d256a_l0
    (fun i q => dot_S256x64_S64x64_S256x64_1_0_0_1_n_n.lhsIdx_val_of_single rfl i q)
    (fun i q => dot_S256x64_S64x64_S256x64_1_0_0_1_n_n.rhsIdx_val_of_single rfl i q) d256a_r1 l r p c

theorem hd256b {φ₁ φ₂ : FTy} (l : FVec Ideal S256x64 φ₁) (r : FVec Ideal S64x32 φ₂) (p : Fin 256) (c : Fin 32) :
    Host.dotGeneral dot_S256x64_S64x32_S256x32_1_0_0_1_n_n none l r (ix2 p c) = ∑ k : Fin 64, l (ix2 p k) * r (ix2 k c) :=
  hostdot_row dot_S256x64_S64x32_S256x32_1_0_0_1_n_n rfl rfl d256b_l0
    (fun i q => dot_S256x64_S64x32_S256x32_1_0_0_1_n_n.lhsIdx_val_of_single rfl i q)
    (fun i q => dot_S256x64_S64x32_S256x32_1_0_0_1_n_n.rhsIdx_val_of_single rfl i q) d256b_r1 l r p c

theorem rows100k_apply (v : (⟨S64, .f32⟩ : BufTy).Contents (Elt Ideal)) (p : Fin 100000) (q : Fin 64) :
    rows100k (F := Ideal) v (ix2 p q) = v (ix1 q) :=
  host_bias v bcast_S64_S1x64_1 bcast_S1x64_S100000x64_0_1 (by decide) p q

theorem rows256x64_apply (v : (⟨S64, .f32⟩ : BufTy).Contents (Elt Ideal)) (p : Fin 256) (q : Fin 64) :
    rows256x64 (F := Ideal) v (ix2 p q) = v (ix1 q) :=
  host_bias v bcast_S64_S1x64_1 bcast_S1x64_S256x64_0_1 (by decide) p q

theorem rows256x32_apply (v : (⟨S32, .f32⟩ : BufTy).Contents (Elt Ideal)) (p : Fin 256) (q : Fin 32) :
    rows256x32 (F := Ideal) v (ix2 p q) = v (ix1 q) :=
  host_bias v bcast_S32_S1x32_1 bcast_S1x32_S256x32_0_1 (by decide) p q

theorem zeros100k_apply (i : S100000x64.Idx) : zeros100k (F := Ideal) i = zero32 :=
  host_splat bcast_S_S100000x64 _ i

theorem zeros256x64_apply (i : S256x64.Idx) : zeros256x64 (F := Ideal) i = zero32 :=
  host_splat bcast_S_S256x64 _ i

theorem epsv_apply (i : S64.Idx) : epsv (F := Ideal) i = eps32 :=
  host_splat bcast_S_S64 _ i

/-- The host's layer at `(r, q)`: the layer's row function of row `r` of `x + a`. -/
theorem refLayer_apply (x a : FVec Ideal S100000x64 .f32) (wa : FVec Ideal S64x64 .f32) (ba : FVec Ideal S64 .f32) (wb : FVec Ideal S64x64 .f32) (bb g be mu va : FVec Ideal S64 .f32)
    (r : Fin 100000) (q : Fin 64) :
    refLayer (F := Ideal) x a wa ba wb bb g be mu va (ix2 r q)
      = ginRow (fun j => x (ix2 r j) + a (ix2 r j)) wa ba wb bb g be mu va q := by
  unfold refLayer
  simp only [addf_apply, mulf_apply, subf_apply, maximumf_apply, rows100k_apply, zeros100k_apply, epsv_apply, hd100k]
  rfl

/-- The host's head at `(r, q)`: the head's row function of row `r` of the pooled features. -/
theorem refHead_apply (p : FVec Ideal S256x64 .f32) (w1 : FVec Ideal S64x64 .f32) (b1 : FVec Ideal S64 .f32)
    (w2 : FVec Ideal S64x32 .f32) (b2 : FVec Ideal S32 .f32)
    (r : Fin 256) (q : Fin 32) :
    refHead (F := Ideal) p w1 b1 w2 b2 (ix2 r q) = headRow (fun j => p (ix2 r j)) w1 b1 w2 b2 q := by
  unfold refHead
  simp only [addf_apply, maximumf_apply, rows256x64_apply, rows256x32_apply, zeros256x64_apply, hd256a, hd256b]
  rfl

end Cert.ReferenceIdeal.Terms

end
-- ==== Proof.KernelBlocks.lean ====
/-
  From blocks to whole arrays.

  Each pallas region writes its output array block by block: grid point `t` stores the body's result for block `t`.
  Because a dense layer acts on rows independently, what point `t` stores is exactly block `t` of the layer applied
  to the WHOLE input arrays; the blocks tile the output array (rows `5000·t … 5000·t + 4999` for the two GIN regions,
  everything at once for the head), so after the region the output array is the layer (resp. the head) of the
  arrays the region was entered with.  Stated for any entry contents `V`.
-/
import proofs.«168609_j33930241638747_1_alg».proof.Proof.Gen.KernelIdeal.Frame
import proofs.«168609_j33930241638747_1_alg».proof.Proof.KernelRows
import proofs.«168609_j33930241638747_1_alg».proof.Proof.RefTerms
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## Region 0: a GIN layer over 20 blocks of 5000 rows -/

/-- The printed index maps over the grid: the row-blocked windows sit at block row `t`, the parameter windows at the origin. -/
theorem idx_facts0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_10.index t (0 : Fin 2) = t.val
    ∧ win0_10.index t (1 : Fin 2) = 0
    ∧ win0_2.index t (0 : Fin 2) = 0
    ∧ win0_2.index t (1 : Fin 2) = 0
    ∧ win0_4.index t (0 : Fin 2) = 0
    ∧ win0_4.index t (1 : Fin 2) = 0
    ∧ win0_3.index t (0 : Fin 1) = 0
    ∧ win0_5.index t (0 : Fin 1) = 0
    ∧ win0_6.index t (0 : Fin 1) = 0
    ∧ win0_7.index t (0 : Fin 1) = 0
    ∧ win0_8.index t (0 : Fin 1) = 0
    ∧ win0_9.index t (0 : Fin 1) = 0 :=
  (by decide +kernel : ∀ t : Fin grid0.N, _)

/-- Row `p` of point `t`'s block of input window 0 is row `5000 · t + p` of the window's array. -/
theorem row0_0 (c : Dev nD) (t : Fin cfg0.N) (p : Fin 5000) (j : Fin 64) (h : t.val * 5000 + p.val < 100000) :
    iblk0 (F := Ideal) V c 0 t (ix2 p j) = V c main_arg0 (ix2 ⟨t.val * 5000 + p.val, h⟩ j) := by
  show V c main_arg0 (((cfg0.win 0).blk t).view.emb (ix2 p j)) = _
  refine congrArg _ (funext fun a => Fin.ext ?_)
  obtain ⟨e0, e1, e2, e3, e4, e5, e6, e7, e8, e9, e10, e11, e12, e13, e14, e15⟩ := idx_facts0 t
  match a with
  | ⟨0, _⟩ => show win0_0.index t (0 : Fin 2) * 5000 + 1 * p.val = t.val * 5000 + p.val; omega
  | ⟨1, _⟩ => show win0_0.index t (1 : Fin 2) * 64 + 1 * j.val = j.val; omega

/-- Row `p` of point `t`'s block of input window 1 is row `5000 · t + p` of the window's array. -/
theorem row0_1 (c : Dev nD) (t : Fin cfg0.N) (p : Fin 5000) (j : Fin 64) (h : t.val * 5000 + p.val < 100000) :
    iblk0 (F := Ideal) V c 1 t (ix2 p j) = V c main_v13 (ix2 ⟨t.val * 5000 + p.val, h⟩ j) := by
  show V c main_v13 (((cfg0.win 1).blk t).view.emb (ix2 p j)) = _
  refine congrArg _ (funext fun a => Fin.ext ?_)
  obtain ⟨e0, e1, e2, e3, e4, e5, e6, e7, e8, e9, e10, e11, e12, e13, e14, e15⟩ := idx_facts0 t
  match a with
  | ⟨0, _⟩ => show win0_1.index t (0 : Fin 2) * 5000 + 1 * p.val = t.val * 5000 + p.val; omega
  | ⟨1, _⟩ => show win0_1.index t (1 : Fin 2) * 64 + 1 * j.val = j.val; omega

/-- Input window 2's block is its whole array at every point. -/
theorem whole0_2 (c : Dev nD) (t : Fin cfg0.N) : iblk0 (F := Ideal) V c 2 t = V c main_arg3 := by
  funext y
  show V c main_arg3 (((cfg0.win 2).blk t).view.emb y) = V c main_arg3 y
  refine congrArg _ (funext fun a => Fin.ext ?_)
  obtain ⟨e0, e1, e2, e3, e4, e5, e6, e7, e8, e9, e10, e11, e12, e13, e14, e15⟩ := idx_facts0 t
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- Input window 3's block is its whole array at every point. -/
theorem whole0_3 (c : Dev nD) (t : Fin cfg0.N) : iblk0 (F := Ideal) V c 3 t = V c main_arg4 := by
  funext y
  show V c main_arg4 (((cfg0.win 3).blk t).view.emb y) = V c main_arg4 y
  refine congrArg _ (funext fun a => Fin.ext ?_)
  obtain ⟨e0, e1, e2, e3, e4, e5, e6, e7, e8, e9, e10, e11, e12, e13, e14, e15⟩ := idx_facts0 t
  match a with
  | ⟨0, _⟩ => show win0_3.index t (0 : Fin 1) * 64 + 1 * (y 0).val = (y 0).val; omega

/-- Input window 4's block is its whole array at every point. -/
theorem whole0_4 (c : Dev nD) (t : Fin cfg0.N) : iblk0 (F := Ideal) V c 4 t = V c main_arg5 := by
  funext y
  show V c main_arg5 (((cfg0.win 4).blk t).view.emb y) = V c main_arg5 y
  refine congrArg _ (funext fun a => Fin.ext ?_)
  obtain ⟨e0, e1, e2, e3, e4, e5, e6, e7, e8, e9, e10, e11, e12, e13, e14, e15⟩ := idx_facts0 t
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- Input window 5's block is its whole array at every point. -/
theorem whole0_5 (c : Dev nD) (t : Fin cfg0.N) : iblk0 (F := Ideal) V c 5 t = V c main_arg6 := by
  funext y
  show V c main_arg6 (((cfg0.win 5).blk t).view.emb y) = V c main_arg6 y
  refine congrArg _ (funext fun a => Fin.ext ?_)
  obtain ⟨e0, e1, e2, e3, e4, e5, e6, e7, e8, e9, e10, e11, e12, e13, e14, e15⟩ := idx_facts0 t
  match a with
  | ⟨0, _⟩ => show win0_5.index t (0 : Fin 1) * 64 + 1 * (y 0).val = (y 0).val; omega

/-- Input window 6's block is its whole array at every point. -/
theorem whole0_6 (c : Dev nD) (t : Fin cfg0.N) : iblk0 (F := Ideal) V c 6 t = V c main_arg7 := by
  funext y
  show V c main_arg7 (((cfg0.win 6).blk t).view.emb y) = V c main_arg7 y
  refine congrArg _ (funext fun a => Fin.ext ?_)
  obtain ⟨e0, e1, e2, e3, e4, e5, e6, e7, e8, e9, e10, e11, e12, e13, e14, e15⟩ := idx_facts0 t
  match a with
  | ⟨0, _⟩ => show win0_6.index t (0 : Fin 1) * 64 + 1 * (y 0).val = (y 0).val; omega

/-- Input window 7's block is its whole array at every point. -/
theorem whole0_7 (c : Dev nD) (t : Fin cfg0.N) : iblk0 (F := Ideal) V c 7 t = V c main_arg8 := by
  funext y
  show V c main_arg8 (((cfg0.win 7).blk t).view.emb y) = V c main_arg8 y
  refine congrArg _ (funext fun a => Fin.ext ?_)
  obtain ⟨e0, e1, e2, e3, e4, e5, e6, e7, e8, e9, e10, e11, e12, e13, e14, e15⟩ := idx_facts0 t
  match a with
  | ⟨0, _⟩ => show win0_7.index t (0 : Fin 1) * 64 + 1 * (y 0).val = (y 0).val; omega

/-- Input window 8's block is its whole array at every point. -/
theorem whole0_8 (c : Dev nD) (t : Fin cfg0.N) : iblk0 (F := Ideal) V c 8 t = V c main_arg9 := by
  funext y
  show V c main_arg9 (((cfg0.win 8).blk t).view.emb y) = V c main_arg9 y
  refine congrArg _ (funext fun a => Fin.ext ?_)
  obtain ⟨e0, e1, e2, e3, e4, e5, e6, e7, e8, e9, e10, e11, e12, e13, e14, e15⟩ := idx_facts0 t
  match a with
  | ⟨0, _⟩ => show win0_8.index t (0 : Fin 1) * 64 + 1 * (y 0).val = (y 0).val; omega

/-- Input window 9's block is its whole array at every point. -/
theorem whole0_9 (c : Dev nD) (t : Fin cfg0.N) : iblk0 (F := Ideal) V c 9 t = V c main_arg10 := by
  funext y
  show V c main_arg10 (((cfg0.win 9).blk t).view.emb y) = V c main_arg10 y
  refine congrArg _ (funext fun a => Fin.ext ?_)
  obtain ⟨e0, e1, e2, e3, e4, e5, e6, e7, e8, e9, e10, e11, e12, e13, e14, e15⟩ := idx_facts0 t
  match a with
  | ⟨0, _⟩ => show win0_9.index t (0 : Fin 1) * 64 + 1 * (y 0).val = (y 0).val; omega

/-- The layer of the arrays as region 0 finds them: what its output array ends holding. -/
abbrev G0 (c : Dev nD) : S100000x64.Idx → EReal :=
  Cert.ReferenceIdeal.Terms.refLayer (F := Ideal) (V c main_arg0) (V c main_v13) (V c main_arg3) (V c main_arg4) (V c main_arg5) (V c main_arg6) (V c main_arg7) (V c main_arg8) (V c main_arg9) (V c main_arg10)

/-- What point `t` writes back is block `t` of the layer of the whole arrays: row `p` of the stored block is the
    row function of row `5000 · t + p` of `x + agg`, which is the layer's row `5000 · t + p`. -/
theorem flushed0_eq (c : Dev nD) (t : Fin cfg0.N) :
    (dat0 (F := Ideal) V c).flushed 10 t = ((cfg0.win 10).blk t).view.read (Elt Ideal) (G0 V c) := by
  show (cfg0.win 10).cut (grid0.coords t) ((dat0 V c).after 10 t) = _
  rw [after0_10]
  unfold out0_10
  rw [View.canon_unit_zero hz2]
  simp only [View.ld_unit_zero (S := S5000x64) hz2, View.ld_unit_zero (S := S64x64) hz2, View.ld_unit_zero (S := S64) hz1]
  funext y
  obtain ⟨p, q, rfl⟩ : ∃ (p : Fin 5000) (q : Fin 64), y = ix2 p q := ⟨y 0, y 1, eq_ix2 y⟩
  have ht : t.val < 20 := lt_of_lt_of_eq t.isLt N_0
  have hp : p.val < 5000 := p.isLt
  have hrow : t.val * 5000 + p.val < 100000 := by omega
  have hemb : ((cfg0.win 10).blk t).view.emb (ix2 p q) = ix2 (⟨t.val * 5000 + p.val, hrow⟩ : Fin 100000) q := by
    funext a; apply Fin.ext
    obtain ⟨e0, e1, e2, e3, e4, e5, e6, e7, e8, e9, e10, e11, e12, e13, e14, e15⟩ := idx_facts0 t
    match a with
    | ⟨0, _⟩ => show win0_10.index t (0 : Fin 2) * 5000 + 1 * p.val = t.val * 5000 + p.val; omega
    | ⟨1, _⟩ => show win0_10.index t (1 : Fin 2) * 64 + 1 * q.val = q.val; omega
  show k0_pay1 (F := Ideal) (k0_pay2 (iblk0 V c 0 t) (iblk0 V c 1 t) (iblk0 V c 2 t) (iblk0 V c 3 t) (iblk0 V c 4 t) (iblk0 V c 5 t) (iblk0 V c 8 t) (iblk0 V c 9 t) (iblk0 V c 6 t)) (iblk0 V c 7 t) (ix2 p q)
    = G0 V c (((cfg0.win 10).blk t).view.emb (ix2 p q))
  rw [hemb, Cert.KernelIdeal.Rows.pay0_apply]
  refine Eq.trans ?_ (Cert.ReferenceIdeal.Terms.refLayer_apply (V c main_arg0) (V c main_v13) (V c main_arg3) (V c main_arg4) (V c main_arg5) (V c main_arg6) (V c main_arg7) (V c main_arg8) (V c main_arg9) (V c main_arg10) ⟨t.val * 5000 + p.val, hrow⟩ q).symm
  rw [whole0_2 V c t, whole0_3 V c t, whole0_4 V c t, whole0_5 V c t, whole0_6 V c t, whole0_7 V c t, whole0_8 V c t, whole0_9 V c t]
  exact congrArg (fun f => Cert.RowSpec.ginRow f (V c main_arg3) (V c main_arg4) (V c main_arg5) (V c main_arg6) (V c main_arg7) (V c main_arg8) (V c main_arg9) (V c main_arg10) q)
    (funext fun j => by rw [row0_0 V c t p j hrow, row0_1 V c t p j hrow])

/-- An index of the output array is in point `t`'s block iff each coordinate is in the block's range on its axis. -/
theorem mem_blk0 (t : Fin cfg0.N) (i : S100000x64.Idx) :
    i ∈ ((cfg0.win 10).blk t).view.set ↔ ∀ a : Fin 2, win0_10.index t a * S5000x64.size a ≤ (i a).val ∧ (i a).val < win0_10.index t a * S5000x64.size a + S5000x64.size a := by
  show i ∈ ((View.whole main_v14).slice (win0_10.rect t)).set ↔ _
  rw [View.set_slice_whole, Rect.mem_set_unit]
  exact Iff.rfl

/-- Every row lies in the block of the point `row / 5000`. -/
theorem cover0 (i : S100000x64.Idx) :
    ∃ t : Fin cfg0.N, (cfg0.win 10).flush t = true ∧ i ∈ ((cfg0.win 10).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  have htv : t.val = (i 0).val / 5000 := rfl
  refine ⟨t, flush0_10 t, ?_⟩
  rw [mem_blk0]
  obtain ⟨e0, e1, e2, e3, e4, e5, e6, e7, e8, e9, e10, e11, e12, e13, e14, e15⟩ := idx_facts0 t
  intro a
  match a with
  | ⟨0, _⟩ => show win0_10.index t (0 : Fin 2) * 5000 ≤ (i 0).val ∧ (i 0).val < win0_10.index t (0 : Fin 2) * 5000 + 5000; omega
  | ⟨1, _⟩ => show win0_10.index t (1 : Fin 2) * 64 ≤ (i 1).val ∧ (i 1).val < win0_10.index t (1 : Fin 2) * 64 + 64; omega

/-- Region 0's output array ends at the layer of the arrays it was entered with. -/
theorem final0 (c : Dev nD) : (dat0 (F := Ideal) V c).arrAt 10 cfg0.N = G0 V c :=
  (dat0 V c).arrAt_eq_of_cover 10 (G0 V c) (fun t _ => flushed0_eq V c t) (cover0)

/-! ## Region 1: a GIN layer over 20 blocks of 5000 rows -/

/-- The printed index maps over the grid: the row-blocked windows sit at block row `t`, the parameter windows at the origin. -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_10.index t (0 : Fin 2) = t.val
    ∧ win1_10.index t (1 : Fin 2) = 0
    ∧ win1_2.index t (0 : Fin 2) = 0
    ∧ win1_2.index t (1 : Fin 2) = 0
    ∧ win1_4.index t (0 : Fin 2) = 0
    ∧ win1_4.index t (1 : Fin 2) = 0
    ∧ win1_3.index t (0 : Fin 1) = 0
    ∧ win1_5.index t (0 : Fin 1) = 0
    ∧ win1_6.index t (0 : Fin 1) = 0
    ∧ win1_7.index t (0 : Fin 1) = 0
    ∧ win1_8.index t (0 : Fin 1) = 0
    ∧ win1_9.index t (0 : Fin 1) = 0 :=
  (by decide +kernel : ∀ t : Fin grid1.N, _)

/-- Row `p` of point `t`'s block of input window 0 is row `5000 · t + p` of the window's array. -/
theorem row1_0 (c : Dev nD) (t : Fin cfg1.N) (p : Fin 5000) (j : Fin 64) (h : t.val * 5000 + p.val < 100000) :
    iblk1 (F := Ideal) V c 0 t (ix2 p j) = V c main_v14 (ix2 ⟨t.val * 5000 + p.val, h⟩ j) := by
  show V c main_v14 (((cfg1.win 0).blk t).view.emb (ix2 p j)) = _
  refine congrArg _ (funext fun a => Fin.ext ?_)
  obtain ⟨e0, e1, e2, e3, e4, e5, e6, e7, e8, e9, e10, e11, e12, e13, e14, e15⟩ := idx_facts1 t
  match a with
  | ⟨0, _⟩ => show win1_0.index t (0 : Fin 2) * 5000 + 1 * p.val = t.val * 5000 + p.val; omega
  | ⟨1, _⟩ => show win1_0.index t (1 : Fin 2) * 64 + 1 * j.val = j.val; omega

/-- Row `p` of point `t`'s block of input window 1 is row `5000 · t + p` of the window's array. -/
theorem row1_1 (c : Dev nD) (t : Fin cfg1.N) (p : Fin 5000) (j : Fin 64) (h : t.val * 5000 + p.val < 100000) :
    iblk1 (F := Ideal) V c 1 t (ix2 p j) = V c main_v24 (ix2 ⟨t.val * 5000 + p.val, h⟩ j) := by
  show V c main_v24 (((cfg1.win 1).blk t).view.emb (ix2 p j)) = _
  refine congrArg _ (funext fun a => Fin.ext ?_)
  obtain ⟨e0, e1, e2, e3, e4, e5, e6, e7, e8, e9, e10, e11, e12, e13, e14, e15⟩ := idx_facts1 t
  match a with
  | ⟨0, _⟩ => show win1_1.index t (0 : Fin 2) * 5000 + 1 * p.val = t.val * 5000 + p.val; omega
  | ⟨1, _⟩ => show win1_1.index t (1 : Fin 2) * 64 + 1 * j.val = j.val; omega

/-- Input window 2's block is its whole array at every point. -/
theorem whole1_2 (c : Dev nD) (t : Fin cfg1.N) : iblk1 (F := Ideal) V c 2 t = V c main_arg11 := by
  funext y
  show V c main_arg11 (((cfg1.win 2).blk t).view.emb y) = V c main_arg11 y
  refine congrArg _ (funext fun a => Fin.ext ?_)
  obtain ⟨e0, e1, e2, e3, e4, e5, e6, e7, e8, e9, e10, e11, e12, e13, e14, e15⟩ := idx_facts1 t
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- Input window 3's block is its whole array at every point. -/
theorem whole1_3 (c : Dev nD) (t : Fin cfg1.N) : iblk1 (F := Ideal) V c 3 t = V c main_arg12 := by
  funext y
  show V c main_arg12 (((cfg1.win 3).blk t).view.emb y) = V c main_arg12 y
  refine congrArg _ (funext fun a => Fin.ext ?_)
  obtain ⟨e0, e1, e2, e3, e4, e5, e6, e7, e8, e9, e10, e11, e12, e13, e14, e15⟩ := idx_facts1 t
  match a with
  | ⟨0, _⟩ => show win1_3.index t (0 : Fin 1) * 64 + 1 * (y 0).val = (y 0).val; omega

/-- Input window 4's block is its whole array at every point. -/
theorem whole1_4 (c : Dev nD) (t : Fin cfg1.N) : iblk1 (F := Ideal) V c 4 t = V c main_arg13 := by
  funext y
  show V c main_arg13 (((cfg1.win 4).blk t).view.emb y) = V c main_arg13 y
  refine congrArg _ (funext fun a => Fin.ext ?_)
  obtain ⟨e0, e1, e2, e3, e4, e5, e6, e7, e8, e9, e10, e11, e12, e13, e14, e15⟩ := idx_facts1 t
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- Input window 5's block is its whole array at every point. -/
theorem whole1_5 (c : Dev nD) (t : Fin cfg1.N) : iblk1 (F := Ideal) V c 5 t = V c main_arg14 := by
  funext y
  show V c main_arg14 (((cfg1.win 5).blk t).view.emb y) = V c main_arg14 y
  refine congrArg _ (funext fun a => Fin.ext ?_)
  obtain ⟨e0, e1, e2, e3, e4, e5, e6, e7, e8, e9, e10, e11, e12, e13, e14, e15⟩ := idx_facts1 t
  match a with
  | ⟨0, _⟩ => show win1_5.index t (0 : Fin 1) * 64 + 1 * (y 0).val = (y 0).val; omega

/-- Input window 6's block is its whole array at every point. -/
theorem whole1_6 (c : Dev nD) (t : Fin cfg1.N) : iblk1 (F := Ideal) V c 6 t = V c main_arg15 := by
  funext y
  show V c main_arg15 (((cfg1.win 6).blk t).view.emb y) = V c main_arg15 y
  refine congrArg _ (funext fun a => Fin.ext ?_)
  obtain ⟨e0, e1, e2, e3, e4, e5, e6, e7, e8, e9, e10, e11, e12, e13, e14, e15⟩ := idx_facts1 t
  match a with
  | ⟨0, _⟩ => show win1_6.index t (0 : Fin 1) * 64 + 1 * (y 0).val = (y 0).val; omega

/-- Input window 7's block is its whole array at every point. -/
theorem whole1_7 (c : Dev nD) (t : Fin cfg1.N) : iblk1 (F := Ideal) V c 7 t = V c main_arg16 := by
  funext y
  show V c main_arg16 (((cfg1.win 7).blk t).view.emb y) = V c main_arg16 y
  refine congrArg _ (funext fun a => Fin.ext ?_)
  obtain ⟨e0, e1, e2, e3, e4, e5, e6, e7, e8, e9, e10, e11, e12, e13, e14, e15⟩ := idx_facts1 t
  match a with
  | ⟨0, _⟩ => show win1_7.index t (0 : Fin 1) * 64 + 1 * (y 0).val = (y 0).val; omega

/-- Input window 8's block is its whole array at every point. -/
theorem whole1_8 (c : Dev nD) (t : Fin cfg1.N) : iblk1 (F := Ideal) V c 8 t = V c main_arg17 := by
  funext y
  show V c main_arg17 (((cfg1.win 8).blk t).view.emb y) = V c main_arg17 y
  refine congrArg _ (funext fun a => Fin.ext ?_)
  obtain ⟨e0, e1, e2, e3, e4, e5, e6, e7, e8, e9, e10, e11, e12, e13, e14, e15⟩ := idx_facts1 t
  match a with
  | ⟨0, _⟩ => show win1_8.index t (0 : Fin 1) * 64 + 1 * (y 0).val = (y 0).val; omega

/-- Input window 9's block is its whole array at every point. -/
theorem whole1_9 (c : Dev nD) (t : Fin cfg1.N) : iblk1 (F := Ideal) V c 9 t = V c main_arg18 := by
  funext y
  show V c main_arg18 (((cfg1.win 9).blk t).view.emb y) = V c main_arg18 y
  refine congrArg _ (funext fun a => Fin.ext ?_)
  obtain ⟨e0, e1, e2, e3, e4, e5, e6, e7, e8, e9, e10, e11, e12, e13, e14, e15⟩ := idx_facts1 t
  match a with
  | ⟨0, _⟩ => show win1_9.index t (0 : Fin 1) * 64 + 1 * (y 0).val = (y 0).val; omega

/-- The layer of the arrays as region 1 finds them: what its output array ends holding. -/
abbrev G1 (c : Dev nD) : S100000x64.Idx → EReal :=
  Cert.ReferenceIdeal.Terms.refLayer (F := Ideal) (V c main_v14) (V c main_v24) (V c main_arg11) (V c main_arg12) (V c main_arg13) (V c main_arg14) (V c main_arg15) (V c main_arg16) (V c main_arg17) (V c main_arg18)

/-- What point `t` writes back is block `t` of the layer of the whole arrays: row `p` of the stored block is the
    row function of row `5000 · t + p` of `x + agg`, which is the layer's row `5000 · t + p`. -/
theorem flushed1_eq (c : Dev nD) (t : Fin cfg1.N) :
    (dat1 (F := Ideal) V c).flushed 10 t = ((cfg1.win 10).blk t).view.read (Elt Ideal) (G1 V c) := by
  show (cfg1.win 10).cut (grid1.coords t) ((dat1 V c).after 10 t) = _
  rw [after1_10]
  unfold out1_10
  rw [View.canon_unit_zero hz2]
  simp only [View.ld_unit_zero (S := S5000x64) hz2, View.ld_unit_zero (S := S64x64) hz2, View.ld_unit_zero (S := S64) hz1]
  funext y
  obtain ⟨p, q, rfl⟩ : ∃ (p : Fin 5000) (q : Fin 64), y = ix2 p q := ⟨y 0, y 1, eq_ix2 y⟩
  have ht : t.val < 20 := lt_of_lt_of_eq t.isLt N_1
  have hp : p.val < 5000 := p.isLt
  have hrow : t.val * 5000 + p.val < 100000 := by omega
  have hemb : ((cfg1.win 10).blk t).view.emb (ix2 p q) = ix2 (⟨t.val * 5000 + p.val, hrow⟩ : Fin 100000) q := by
    funext a; apply Fin.ext
    obtain ⟨e0, e1, e2, e3, e4, e5, e6, e7, e8, e9, e10, e11, e12, e13, e14, e15⟩ := idx_facts1 t
    match a with
    | ⟨0, _⟩ => show win1_10.index t (0 : Fin 2) * 5000 + 1 * p.val = t.val * 5000 + p.val; omega
    | ⟨1, _⟩ => show win1_10.index t (1 : Fin 2) * 64 + 1 * q.val = q.val; omega
  show k1_pay1 (F := Ideal) (k1_pay2 (iblk1 V c 0 t) (iblk1 V c 1 t) (iblk1 V c 2 t) (iblk1 V c 3 t) (iblk1 V c 4 t) (iblk1 V c 5 t) (iblk1 V c 8 t) (iblk1 V c 9 t) (iblk1 V c 6 t)) (iblk1 V c 7 t) (ix2 p q)
    = G1 V c (((cfg1.win 10).blk t).view.emb (ix2 p q))
  rw [hemb, Cert.KernelIdeal.Rows.pay1_apply]
  refine Eq.trans ?_ (Cert.ReferenceIdeal.Terms.refLayer_apply (V c main_v14) (V c main_v24) (V c main_arg11) (V c main_arg12) (V c main_arg13) (V c main_arg14) (V c main_arg15) (V c main_arg16) (V c main_arg17) (V c main_arg18) ⟨t.val * 5000 + p.val, hrow⟩ q).symm
  rw [whole1_2 V c t, whole1_3 V c t, whole1_4 V c t, whole1_5 V c t, whole1_6 V c t, whole1_7 V c t, whole1_8 V c t, whole1_9 V c t]
  exact congrArg (fun f => Cert.RowSpec.ginRow f (V c main_arg11) (V c main_arg12) (V c main_arg13) (V c main_arg14) (V c main_arg15) (V c main_arg16) (V c main_arg17) (V c main_arg18) q)
    (funext fun j => by rw [row1_0 V c t p j hrow, row1_1 V c t p j hrow])

/-- An index of the output array is in point `t`'s block iff each coordinate is in the block's range on its axis. -/
theorem mem_blk1 (t : Fin cfg1.N) (i : S100000x64.Idx) :
    i ∈ ((cfg1.win 10).blk t).view.set ↔ ∀ a : Fin 2, win1_10.index t a * S5000x64.size a ≤ (i a).val ∧ (i a).val < win1_10.index t a * S5000x64.size a + S5000x64.size a := by
  show i ∈ ((View.whole main_v25).slice (win1_10.rect t)).set ↔ _
  rw [View.set_slice_whole, Rect.mem_set_unit]
  exact Iff.rfl

/-- Every row lies in the block of the point `row / 5000`. -/
theorem cover1 (i : S100000x64.Idx) :
    ∃ t : Fin cfg1.N, (cfg1.win 10).flush t = true ∧ i ∈ ((cfg1.win 10).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  have htv : t.val = (i 0).val / 5000 := rfl
  refine ⟨t, flush1_10 t, ?_⟩
  rw [mem_blk1]
  obtain ⟨e0, e1, e2, e3, e4, e5, e6, e7, e8, e9, e10, e11, e12, e13, e14, e15⟩ := idx_facts1 t
  intro a
  match a with
  | ⟨0, _⟩ => show win1_10.index t (0 : Fin 2) * 5000 ≤ (i 0).val ∧ (i 0).val < win1_10.index t (0 : Fin 2) * 5000 + 5000; omega
  | ⟨1, _⟩ => show win1_10.index t (1 : Fin 2) * 64 ≤ (i 1).val ∧ (i 1).val < win1_10.index t (1 : Fin 2) * 64 + 64; omega

/-- Region 1's output array ends at the layer of the arrays it was entered with. -/
theorem final1 (c : Dev nD) : (dat1 (F := Ideal) V c).arrAt 10 cfg1.N = G1 V c :=
  (dat1 V c).arrAt_eq_of_cover 10 (G1 V c) (fun t _ => flushed1_eq V c t) (cover1)

/-! ## Region 2: the head over one block of all 256 rows -/

/-- The printed index maps over the one-point grid: every window at the origin. -/
theorem idx_facts2 : ∀ t : Fin cfg2.N, win2_0.index t (0 : Fin 2) = 0
    ∧ win2_0.index t (1 : Fin 2) = 0
    ∧ win2_1.index t (0 : Fin 2) = 0
    ∧ win2_1.index t (1 : Fin 2) = 0
    ∧ win2_2.index t (0 : Fin 1) = 0
    ∧ win2_3.index t (0 : Fin 2) = 0
    ∧ win2_3.index t (1 : Fin 2) = 0
    ∧ win2_4.index t (0 : Fin 1) = 0
    ∧ win2_5.index t (0 : Fin 2) = 0
    ∧ win2_5.index t (1 : Fin 2) = 0 :=
  (by decide +kernel : ∀ t : Fin grid2.N, _)

/-- Input window 0's block is its whole array. -/
theorem whole2_0 (c : Dev nD) (t : Fin cfg2.N) : iblk2 (F := Ideal) V c 0 t = V c main_v37 := by
  funext y
  show V c main_v37 (((cfg2.win 0).blk t).view.emb y) = V c main_v37 y
  refine congrArg _ (funext fun a => Fin.ext ?_)
  obtain ⟨e0, e1, e2, e3, e4, e5, e6, e7, e8, e9⟩ := idx_facts2 t
  match a with
  | ⟨0, _⟩ => show win2_0.index t (0 : Fin 2) * 256 + 1 * (y 0).val = (y 0).val; omega
  | ⟨1, _⟩ => show win2_0.index t (1 : Fin 2) * 64 + 1 * (y 1).val = (y 1).val; omega

/-- Input window 1's block is its whole array. -/
theorem whole2_1 (c : Dev nD) (t : Fin cfg2.N) : iblk2 (F := Ideal) V c 1 t = V c main_arg19 := by
  funext y
  show V c main_arg19 (((cfg2.win 1).blk t).view.emb y) = V c main_arg19 y
  refine congrArg _ (funext fun a => Fin.ext ?_)
  obtain ⟨e0, e1, e2, e3, e4, e5, e6, e7, e8, e9⟩ := idx_facts2 t
  match a with
  | ⟨0, _⟩ => show win2_1.index t (0 : Fin 2) * 64 + 1 * (y 0).val = (y 0).val; omega
  | ⟨1, _⟩ => show win2_1.index t (1 : Fin 2) * 64 + 1 * (y 1).val = (y 1).val; omega

/-- Input window 2's block is its whole array. -/
theorem whole2_2 (c : Dev nD) (t : Fin cfg2.N) : iblk2 (F := Ideal) V c 2 t = V c main_arg20 := by
  funext y
  show V c main_arg20 (((cfg2.win 2).blk t).view.emb y) = V c main_arg20 y
  refine congrArg _ (funext fun a => Fin.ext ?_)
  obtain ⟨e0, e1, e2, e3, e4, e5, e6, e7, e8, e9⟩ := idx_facts2 t
  match a with
  | ⟨0, _⟩ => show win2_2.index t (0 : Fin 1) * 64 + 1 * (y 0).val = (y 0).val; omega

/-- Input window 3's block is its whole array. -/
theorem whole2_3 (c : Dev nD) (t : Fin cfg2.N) : iblk2 (F := Ideal) V c 3 t = V c main_arg21 := by
  funext y
  show V c main_arg21 (((cfg2.win 3).blk t).view.emb y) = V c main_arg21 y
  refine congrArg _ (funext fun a => Fin.ext ?_)
  obtain ⟨e0, e1, e2, e3, e4, e5, e6, e7, e8, e9⟩ := idx_facts2 t
  match a with
  | ⟨0, _⟩ => show win2_3.index t (0 : Fin 2) * 64 + 1 * (y 0).val = (y 0).val; omega
  | ⟨1, _⟩ => show win2_3.index t (1 : Fin 2) * 32 + 1 * (y 1).val = (y 1).val; omega

/-- Input window 4's block is its whole array. -/
theorem whole2_4 (c : Dev nD) (t : Fin cfg2.N) : iblk2 (F := Ideal) V c 4 t = V c main_arg22 := by
  funext y
  show V c main_arg22 (((cfg2.win 4).blk t).view.emb y) = V c main_arg22 y
  refine congrArg _ (funext fun a => Fin.ext ?_)
  obtain ⟨e0, e1, e2, e3, e4, e5, e6, e7, e8, e9⟩ := idx_facts2 t
  match a with
  | ⟨0, _⟩ => show win2_4.index t (0 : Fin 1) * 32 + 1 * (y 0).val = (y 0).val; omega

/-- The head of the arrays as region 2 finds them: what its output array ends holding. -/
abbrev G2 (c : Dev nD) : S256x32.Idx → EReal :=
  Cert.ReferenceIdeal.Terms.refHead (F := Ideal) (V c main_v37) (V c main_arg19) (V c main_arg20) (V c main_arg21) (V c main_arg22)

/-- What the one point writes back is the head of the whole arrays. -/
theorem flushed2_eq (c : Dev nD) (t : Fin cfg2.N) :
    (dat2 (F := Ideal) V c).flushed 5 t = ((cfg2.win 5).blk t).view.read (Elt Ideal) (G2 V c) := by
  show (cfg2.win 5).cut (grid2.coords t) ((dat2 V c).after 5 t) = _
  rw [after2_5]
  unfold out2_5
  rw [View.canon_unit_zero hz2]
  simp only [View.ld_unit_zero (S := S256x64) hz2, View.ld_unit_zero (S := S64x64) hz2, View.ld_unit_zero (S := S64) hz1,
    View.ld_unit_zero (S := S64x32) hz2, View.ld_unit_zero (S := S32) hz1]
  funext y
  obtain ⟨p, q, rfl⟩ : ∃ (p : Fin 256) (q : Fin 32), y = ix2 p q := ⟨y 0, y 1, eq_ix2 y⟩
  have hemb : ((cfg2.win 5).blk t).view.emb (ix2 p q) = ix2 p q := by
    funext a; apply Fin.ext
    obtain ⟨e0, e1, e2, e3, e4, e5, e6, e7, e8, e9⟩ := idx_facts2 t
    match a with
    | ⟨0, _⟩ => show win2_5.index t (0 : Fin 2) * 256 + 1 * p.val = p.val; omega
    | ⟨1, _⟩ => show win2_5.index t (1 : Fin 2) * 32 + 1 * q.val = q.val; omega
  show k2_pay1 (F := Ideal) (iblk2 V c 0 t) (iblk2 V c 1 t) (iblk2 V c 2 t) (iblk2 V c 3 t) (iblk2 V c 4 t) (ix2 p q)
    = G2 V c (((cfg2.win 5).blk t).view.emb (ix2 p q))
  rw [hemb, Cert.KernelIdeal.Rows.pay2_apply, whole2_0 V c t, whole2_1 V c t, whole2_2 V c t, whole2_3 V c t, whole2_4 V c t]
  exact (Cert.ReferenceIdeal.Terms.refHead_apply (V c main_v37) (V c main_arg19) (V c main_arg20) (V c main_arg21) (V c main_arg22) p q).symm

/-- An index of the output array is in the point's block iff each coordinate is in the block's range on its axis. -/
theorem mem_blk2 (t : Fin cfg2.N) (i : S256x32.Idx) :
    i ∈ ((cfg2.win 5).blk t).view.set ↔ ∀ a : Fin 2, win2_5.index t a * S256x32.size a ≤ (i a).val ∧ (i a).val < win2_5.index t a * S256x32.size a + S256x32.size a := by
  show i ∈ ((View.whole main_v38).slice (win2_5.rect t)).set ↔ _
  rw [View.set_slice_whole, Rect.mem_set_unit]
  exact Iff.rfl

/-- The one block covers the output array. -/
theorem cover2 (i : S256x32.Idx) :
    ∃ t : Fin cfg2.N, (cfg2.win 5).flush t = true ∧ i ∈ ((cfg2.win 5).blk t).view.set := by
  have hi0 : (i 0).val < 256 := (i 0).isLt
  have hi1 : (i 1).val < 32 := (i 1).isLt
  have hN : cfg2.N = 1 := N_2
  let t : Fin cfg2.N := ⟨0, by rw [hN]; omega⟩
  refine ⟨t, flush2_5 t, ?_⟩
  rw [mem_blk2]
  obtain ⟨e0, e1, e2, e3, e4, e5, e6, e7, e8, e9⟩ := idx_facts2 t
  intro a
  match a with
  | ⟨0, _⟩ => show win2_5.index t (0 : Fin 2) * 256 ≤ (i 0).val ∧ (i 0).val < win2_5.index t (0 : Fin 2) * 256 + 256; omega
  | ⟨1, _⟩ => show win2_5.index t (1 : Fin 2) * 32 ≤ (i 1).val ∧ (i 1).val < win2_5.index t (1 : Fin 2) * 32 + 32; omega

/-- Region 2's output array ends at the head of the arrays it was entered with. -/
theorem final2 (c : Dev nD) : (dat2 (F := Ideal) V c).arrAt 5 cfg2.N = G2 V c :=
  (dat2 V c).arrAt_eq_of_cover 5 (G2 V c) (fun t _ => flushed2_eq V c t) (cover2)

end Cert.KernelIdeal.Blocks

end
-- ==== Proof.KernelValue.lean ====
/-
  The idealized kernel's result, as a function of the arguments.

  Walking @main's boundaries: the first stretch of host operations forms the edge-index columns and the neighbour
  sum `A(x)`; region 0 leaves `h₁ = layer(x, A(x))`; the second stretch forms `A(h₁)` from the same edge columns;
  region 1 leaves `h₂ = layer(h₁, A(h₁))`; the third stretch pools `h₂` per graph; region 2 leaves the head of the
  pooled features.  No host operation and no region writes an argument, so every parameter a region reads is the
  launch contents.  The composition is, term for term, the reference's model of the arguments.
-/
import proofs.«168609_j33930241638747_1_alg».proof.Proof.Gen.KernelIdeal.Frame
import proofs.«168609_j33930241638747_1_alg».proof.Proof.KernelBlocks
import proofs.«168609_j33930241638747_1_alg».proof.Proof.RefTerms
import Idealize.ShloMosaic.Lib.StableHlo.Run

set_option maxRecDepth 16384

noncomputable section

namespace Cert.KernelIdeal.Value

open Cert.KernelIdeal Cert.KernelIdeal.Gen Cert.ReferenceIdeal.Terms
open Idealize.ShloMosaic Idealize.ShloMosaic.TcCoe Idealize.ShloMosaic.StableHlo

variable (m : (ℓ : Loc nD τ sig) → Buf (Elt Ideal) ℓ) (ρ : Dev nD → PrngReg)

/-! ## What each region finds in the buffers it reads -/

theorem V1_arg0 (c : Dev nD) : V1 m ρ c main_arg0 = m ((c : Thread nD τ).loc main_arg0) :=
  calc W1 m ρ c (Proc.devRef .tc main_arg0)
    _ = m ((c : Thread nD τ).loc main_arg0) := by show StableHlo.after hostOps0 (W0 m ρ c) (Proc.devRef .tc main_arg0) = _; after_results; first | done | rfl
theorem V1_arg3 (c : Dev nD) : V1 m ρ c main_arg3 = m ((c : Thread nD τ).loc main_arg3) :=
  calc W1 m ρ c (Proc.devRef .tc main_arg3)
    _ = m ((c : Thread nD τ).loc main_arg3) := by show StableHlo.after hostOps0 (W0 m ρ c) (Proc.devRef .tc main_arg3) = _; after_results; first | done | rfl
theorem V1_arg4 (c : Dev nD) : V1 m ρ c main_arg4 = m ((c : Thread nD τ).loc main_arg4) :=
  calc W1 m ρ c (Proc.devRef .tc main_arg4)
    _ = m ((c : Thread nD τ).loc main_arg4) := by show StableHlo.after hostOps0 (W0 m ρ c) (Proc.devRef .tc main_arg4) = _; after_results; first | done | rfl
theorem V1_arg5 (c : Dev nD) : V1 m ρ c main_arg5 = m ((c : Thread nD τ).loc main_arg5) :=
  calc W1 m ρ c (Proc.devRef .tc main_arg5)
    _ = m ((c : Thread nD τ).loc main_arg5) := by show StableHlo.after hostOps0 (W0 m ρ c) (Proc.devRef .tc main_arg5) = _; after_results; first | done | rfl
theorem V1_arg6 (c : Dev nD) : V1 m ρ c main_arg6 = m ((c : Thread nD τ).loc main_arg6) :=
  calc W1 m ρ c (Proc.devRef .tc main_arg6)
    _ = m ((c : Thread nD τ).loc main_arg6) := by show StableHlo.after hostOps0 (W0 m ρ c) (Proc.devRef .tc main_arg6) = _; after_results; first | done | rfl
theorem V1_arg7 (c : Dev nD) : V1 m ρ c main_arg7 = m ((c : Thread nD τ).loc main_arg7) :=
  calc W1 m ρ c (Proc.devRef .tc main_arg7)
    _ = m ((c : Thread nD τ).loc main_arg7) := by show StableHlo.after hostOps0 (W0 m ρ c) (Proc.devRef .tc main_arg7) = _; after_results; first | done | rfl
theorem V1_arg8 (c : Dev nD) : V1 m ρ c main_arg8 = m ((c : Thread nD τ).loc main_arg8) :=
  calc W1 m ρ c (Proc.devRef .tc main_arg8)
    _ = m ((c : Thread nD τ).loc main_arg8) := by show StableHlo.after hostOps0 (W0 m ρ c) (Proc.devRef .tc main_arg8) = _; after_results; first | done | rfl
theorem V1_arg9 (c : Dev nD) : V1 m ρ c main_arg9 = m ((c : Thread nD τ).loc main_arg9) :=
  calc W1 m ρ c (Proc.devRef .tc main_arg9)
    _ = m ((c : Thread nD τ).loc main_arg9) := by show StableHlo.after hostOps0 (W0 m ρ c) (Proc.devRef .tc main_arg9) = _; after_results; first | done | rfl
theorem V1_arg10 (c : Dev nD) : V1 m ρ c main_arg10 = m ((c : Thread nD τ).loc main_arg10) :=
  calc W1 m ρ c (Proc.devRef .tc main_arg10)
    _ = m ((c : Thread nD τ).loc main_arg10) := by show StableHlo.after hostOps0 (W0 m ρ c) (Proc.devRef .tc main_arg10) = _; after_results; first | done | rfl

set_option maxHeartbeats 4000000 in
/-- Region 0's second operand is the neighbour sum of `x`. -/
theorem V1_v13 (c : Dev nD) : V1 m ρ c main_v13 = agg (F := Ideal) (m ((c : Thread nD τ).loc main_arg0)) (m ((c : Thread nD τ).loc main_arg1)) := by
  show StableHlo.after hostOps0 (W0 m ρ c) (Proc.devRef .tc main_v13) = _
  after_results_simp
  rfl

/-- The edges' source ids, as the first stretch leaves them and region 0 keeps them. -/
theorem W2_v1 (c : Dev nD) : W2 m ρ c (Proc.devRef .tc main_v1)
    = shapeCast _ (extractStridedSlice S1x1200000 ![0, 0] (m ((c : Thread nD τ).loc main_arg1)) slices_S2x1200000_S1x1200000_0_0) shapeCasts_S1x1200000_S1200000 :=
  (W2_of_ne m ρ c main_v1 (by decide)).trans (by
    show StableHlo.after hostOps0 (W0 m ρ c) (Proc.devRef .tc main_v1) = _
    after_results
    rfl)

/-- The edges' target ids, as the first stretch leaves them and region 0 keeps them. -/
theorem W2_v3 (c : Dev nD) : W2 m ρ c (Proc.devRef .tc main_v3)
    = shapeCast _ (extractStridedSlice S1x1200000 ![1, 0] (m ((c : Thread nD τ).loc main_arg1)) slices_S2x1200000_S1x1200000_1_0) shapeCasts_S1x1200000_S1200000 :=
  (W2_of_ne m ρ c main_v3 (by decide)).trans (by
    show StableHlo.after hostOps0 (W0 m ρ c) (Proc.devRef .tc main_v3) = _
    after_results
    rfl)

/-- The first layer's output, of the arguments. -/
abbrev h1 (c : Dev nD) : S100000x64.Idx → EReal :=
  refLayer (F := Ideal) (m ((c : Thread nD τ).loc main_arg0)) (agg (F := Ideal) (m ((c : Thread nD τ).loc main_arg0)) (m ((c : Thread nD τ).loc main_arg1))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- Region 0 leaves the first layer's output in its output array. -/
theorem W2_v14 (c : Dev nD) : W2 m ρ c (Proc.devRef .tc main_v14) = h1 m c :=
  (W2_arr m ρ c 10).trans ((Cert.KernelIdeal.Blocks.final0 (V1 m ρ) c).trans (by
    show refLayer (F := Ideal) (V1 m ρ c main_arg0) (V1 m ρ c main_v13) (V1 m ρ c main_arg3) (V1 m ρ c main_arg4) (V1 m ρ c main_arg5) (V1 m ρ c main_arg6) (V1 m ρ c main_arg7) (V1 m ρ c main_arg8) (V1 m ρ c main_arg9) (V1 m ρ c main_arg10) = _
    rw [V1_arg0 m ρ c, V1_v13 m ρ c, V1_arg3 m ρ c, V1_arg4 m ρ c, V1_arg5 m ρ c, V1_arg6 m ρ c, V1_arg7 m ρ c, V1_arg8 m ρ c, V1_arg9 m ρ c, V1_arg10 m ρ c]))

theorem V3_arg11 (c : Dev nD) : V3 m ρ c main_arg11 = m ((c : Thread nD τ).loc main_arg11) :=
  calc W3 m ρ c (Proc.devRef .tc main_arg11)
    _ = W2 m ρ c (Proc.devRef .tc main_arg11) := by show StableHlo.after hostOps1 (W2 m ρ c) (Proc.devRef .tc main_arg11) = _; after_results; first | done | rfl
    _ = W1 m ρ c (Proc.devRef .tc main_arg11) := W2_of_ne m ρ c main_arg11 (by decide)
    _ = m ((c : Thread nD τ).loc main_arg11) := by show StableHlo.after hostOps0 (W0 m ρ c) (Proc.devRef .tc main_arg11) = _; after_results; first | done | rfl
theorem V3_arg12 (c : Dev nD) : V3 m ρ c main_arg12 = m ((c : Thread nD τ).loc main_arg12) :=
  calc W3 m ρ c (Proc.devRef .tc main_arg12)
    _ = W2 m ρ c (Proc.devRef .tc main_arg12) := by show StableHlo.after hostOps1 (W2 m ρ c) (Proc.devRef .tc main_arg12) = _; after_results; first | done | rfl
    _ = W1 m ρ c (Proc.devRef .tc main_arg12) := W2_of_ne m ρ c main_arg12 (by decide)
    _ = m ((c : Thread nD τ).loc main_arg12) := by show StableHlo.after hostOps0 (W0 m ρ c) (Proc.devRef .tc main_arg12) = _; after_results; first | done | rfl
theorem V3_arg13 (c : Dev nD) : V3 m ρ c main_arg13 = m ((c : Thread nD τ).loc main_arg13) :=
  calc W3 m ρ c (Proc.devRef .tc main_arg13)
    _ = W2 m ρ c (Proc.devRef .tc main_arg13) := by show StableHlo.after hostOps1 (W2 m ρ c) (Proc.devRef .tc main_arg13) = _; after_results; first | done | rfl
    _ = W1 m ρ c (Proc.devRef .tc main_arg13) := W2_of_ne m ρ c main_arg13 (by decide)
    _ = m ((c : Thread nD τ).loc main_arg13) := by show StableHlo.after hostOps0 (W0 m ρ c) (Proc.devRef .tc main_arg13) = _; after_results; first | done | rfl
theorem V3_arg14 (c : Dev nD) : V3 m ρ c main_arg14 = m ((c : Thread nD τ).loc main_arg14) :=
  calc W3 m ρ c (Proc.devRef .tc main_arg14)
    _ = W2 m ρ c (Proc.devRef .tc main_arg14) := by show StableHlo.after hostOps1 (W2 m ρ c) (Proc.devRef .tc main_arg14) = _; after_results; first | done | rfl
    _ = W1 m ρ c (Proc.devRef .tc main_arg14) := W2_of_ne m ρ c main_arg14 (by decide)
    _ = m ((c : Thread nD τ).loc main_arg14) := by show StableHlo.after hostOps0 (W0 m ρ c) (Proc.devRef .tc main_arg14) = _; after_results; first | done | rfl
theorem V3_arg15 (c : Dev nD) : V3 m ρ c main_arg15 = m ((c : Thread nD τ).loc main_arg15) :=
  calc W3 m ρ c (Proc.devRef .tc main_arg15)
    _ = W2 m ρ c (Proc.devRef .tc main_arg15) := by show StableHlo.after hostOps1 (W2 m ρ c) (Proc.devRef .tc main_arg15) = _; after_results; first | done | rfl
    _ = W1 m ρ c (Proc.devRef .tc main_arg15) := W2_of_ne m ρ c main_arg15 (by decide)
    _ = m ((c : Thread nD τ).loc main_arg15) := by show StableHlo.after hostOps0 (W0 m ρ c) (Proc.devRef .tc main_arg15) = _; after_results; first | done | rfl
theorem V3_arg16 (c : Dev nD) : V3 m ρ c main_arg16 = m ((c : Thread nD τ).loc main_arg16) :=
  calc W3 m ρ c (Proc.devRef .tc main_arg16)
    _ = W2 m ρ c (Proc.devRef .tc main_arg16) := by show StableHlo.after hostOps1 (W2 m ρ c) (Proc.devRef .tc main_arg16) = _; after_results; first | done | rfl
    _ = W1 m ρ c (Proc.devRef .tc main_arg16) := W2_of_ne m ρ c main_arg16 (by decide)
    _ = m ((c : Thread nD τ).loc main_arg16) := by show StableHlo.after hostOps0 (W0 m ρ c) (Proc.devRef .tc main_arg16) = _; after_results; first | done | rfl
theorem V3_arg17 (c : Dev nD) : V3 m ρ c main_arg17 = m ((c : Thread nD τ).loc main_arg17) :=
  calc W3 m ρ c (Proc.devRef .tc main_arg17)
    _ = W2 m ρ c (Proc.devRef .tc main_arg17) := by show StableHlo.after hostOps1 (W2 m ρ c) (Proc.devRef .tc main_arg17) = _; after_results; first | done | rfl
    _ = W1 m ρ c (Proc.devRef .tc main_arg17) := W2_of_ne m ρ c main_arg17 (by decide)
    _ = m ((c : Thread nD τ).loc main_arg17) := by show StableHlo.after hostOps0 (W0 m ρ c) (Proc.devRef .tc main_arg17) = _; after_results; first | done | rfl
theorem V3_arg18 (c : Dev nD) : V3 m ρ c main_arg18 = m ((c : Thread nD τ).loc main_arg18) :=
  calc W3 m ρ c (Proc.devRef .tc main_arg18)
    _ = W2 m ρ c (Proc.devRef .tc main_arg18) := by show StableHlo.after hostOps1 (W2 m ρ c) (Proc.devRef .tc main_arg18) = _; after_results; first | done | rfl
    _ = W1 m ρ c (Proc.devRef .tc main_arg18) := W2_of_ne m ρ c main_arg18 (by decide)
    _ = m ((c : Thread nD τ).loc main_arg18) := by show StableHlo.after hostOps0 (W0 m ρ c) (Proc.devRef .tc main_arg18) = _; after_results; first | done | rfl

/-- Region 1's first operand is the first layer's output: the second stretch does not write it. -/
theorem V3_v14 (c : Dev nD) : V3 m ρ c main_v14 = h1 m c :=
  (show StableHlo.after hostOps1 (W2 m ρ c) (Proc.devRef .tc main_v14) = W2 m ρ c (Proc.devRef .tc main_v14) by
    after_results; first | done | rfl).trans (W2_v14 m ρ c)

/-- Region 1's second operand is the neighbour sum of the first layer's output. -/
theorem V3_v24 (c : Dev nD) : V3 m ρ c main_v24 = agg (F := Ideal) (h1 m c) (m ((c : Thread nD τ).loc main_arg1)) := by
  show StableHlo.after hostOps1 (W2 m ρ c) (Proc.devRef .tc main_v24) = _
  after_results
  rw [W2_v1 m ρ c, W2_v3 m ρ c, W2_v14 m ρ c]
  first | done | rfl

/-- The second layer's output, of the arguments. -/
abbrev h2 (c : Dev nD) : S100000x64.Idx → EReal :=
  refLayer (F := Ideal) (h1 m c) (agg (F := Ideal) (h1 m c) (m ((c : Thread nD τ).loc main_arg1))) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

/-- Region 1 leaves the second layer's output in its output array. -/
theorem W4_v25 (c : Dev nD) : W4 m ρ c (Proc.devRef .tc main_v25) = h2 m c :=
  (W4_arr m ρ c 10).trans ((Cert.KernelIdeal.Blocks.final1 (V3 m ρ) c).trans (by
    show refLayer (F := Ideal) (V3 m ρ c main_v14) (V3 m ρ c main_v24) (V3 m ρ c main_arg11) (V3 m ρ c main_arg12) (V3 m ρ c main_arg13) (V3 m ρ c main_arg14) (V3 m ρ c main_arg15) (V3 m ρ c main_arg16) (V3 m ρ c main_arg17) (V3 m ρ c main_arg18) = _
    rw [V3_v14 m ρ c, V3_v24 m ρ c, V3_arg11 m ρ c, V3_arg12 m ρ c, V3_arg13 m ρ c, V3_arg14 m ρ c, V3_arg15 m ρ c, V3_arg16 m ρ c, V3_arg17 m ρ c, V3_arg18 m ρ c]))

/-- The graph ids reach the third stretch as launched. -/
theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by show StableHlo.after hostOps1 (W2 m ρ c) (Proc.devRef .tc main_arg2) = _; after_results; first | done | rfl
    _ = W1 m ρ c (Proc.devRef .tc main_arg2) := W2_of_ne m ρ c main_arg2 (by decide)
    _ = m ((c : Thread nD τ).loc main_arg2) := by show StableHlo.after hostOps0 (W0 m ρ c) (Proc.devRef .tc main_arg2) = _; after_results; first | done | rfl

theorem V5_arg19 (c : Dev nD) : V5 m ρ c main_arg19 = m ((c : Thread nD τ).loc main_arg19) :=
  calc W5 m ρ c (Proc.devRef .tc main_arg19)
    _ = W4 m ρ c (Proc.devRef .tc main_arg19) := by show StableHlo.after hostOps2 (W4 m ρ c) (Proc.devRef .tc main_arg19) = _; after_results; first | done | rfl
    _ = W3 m ρ c (Proc.devRef .tc main_arg19) := W4_of_ne m ρ c main_arg19 (by decide)
    _ = W2 m ρ c (Proc.devRef .tc main_arg19) := by show StableHlo.after hostOps1 (W2 m ρ c) (Proc.devRef .tc main_arg19) = _; after_results; first | done | rfl
    _ = W1 m ρ c (Proc.devRef .tc main_arg19) := W2_of_ne m ρ c main_arg19 (by decide)
    _ = m ((c : Thread nD τ).loc main_arg19) := by show StableHlo.after hostOps0 (W0 m ρ c) (Proc.devRef .tc main_arg19) = _; after_results; first | done | rfl
theorem V5_arg20 (c : Dev nD) : V5 m ρ c main_arg20 = m ((c : Thread nD τ).loc main_arg20) :=
  calc W5 m ρ c (Proc.devRef .tc main_arg20)
    _ = W4 m ρ c (Proc.devRef .tc main_arg20) := by show StableHlo.after hostOps2 (W4 m ρ c) (Proc.devRef .tc main_arg20) = _; after_results; first | done | rfl
    _ = W3 m ρ c (Proc.devRef .tc main_arg20) := W4_of_ne m ρ c main_arg20 (by decide)
    _ = W2 m ρ c (Proc.devRef .tc main_arg20) := by show StableHlo.after hostOps1 (W2 m ρ c) (Proc.devRef .tc main_arg20) = _; after_results; first | done | rfl
    _ = W1 m ρ c (Proc.devRef .tc main_arg20) := W2_of_ne m ρ c main_arg20 (by decide)
    _ = m ((c : Thread nD τ).loc main_arg20) := by show StableHlo.after hostOps0 (W0 m ρ c) (Proc.devRef .tc main_arg20) = _; after_results; first | done | rfl
theorem V5_arg21 (c : Dev nD) : V5 m ρ c main_arg21 = m ((c : Thread nD τ).loc main_arg21) :=
  calc W5 m ρ c (Proc.devRef .tc main_arg21)
    _ = W4 m ρ c (Proc.devRef .tc main_arg21) := by show StableHlo.after hostOps2 (W4 m ρ c) (Proc.devRef .tc main_arg21) = _; after_results; first | done | rfl
    _ = W3 m ρ c (Proc.devRef .tc main_arg21) := W4_of_ne m ρ c main_arg21 (by decide)
    _ = W2 m ρ c (Proc.devRef .tc main_arg21) := by show StableHlo.after hostOps1 (W2 m ρ c) (Proc.devRef .tc main_arg21) = _; after_results; first | done | rfl
    _ = W1 m ρ c (Proc.devRef .tc main_arg21) := W2_of_ne m ρ c main_arg21 (by decide)
    _ = m ((c : Thread nD τ).loc main_arg21) := by show StableHlo.after hostOps0 (W0 m ρ c) (Proc.devRef .tc main_arg21) = _; after_results; first | done | rfl
theorem V5_arg22 (c : Dev nD) : V5 m ρ c main_arg22 = m ((c : Thread nD τ).loc main_arg22) :=
  calc W5 m ρ c (Proc.devRef .tc main_arg22)
    _ = W4 m ρ c (Proc.devRef .tc main_arg22) := by show StableHlo.after hostOps2 (W4 m ρ c) (Proc.devRef .tc main_arg22) = _; after_results; first | done | rfl
    _ = W3 m ρ c (Proc.devRef .tc main_arg22) := W4_of_ne m ρ c main_arg22 (by decide)
    _ = W2 m ρ c (Proc.devRef .tc main_arg22) := by show StableHlo.after hostOps1 (W2 m ρ c) (Proc.devRef .tc main_arg22) = _; after_results; first | done | rfl
    _ = W1 m ρ c (Proc.devRef .tc main_arg22) := W2_of_ne m ρ c main_arg22 (by decide)
    _ = m ((c : Thread nD τ).loc main_arg22) := by show StableHlo.after hostOps0 (W0 m ρ c) (Proc.devRef .tc main_arg22) = _; after_results; first | done | rfl

/-- Region 2's first operand is the per-graph mean of the second layer's output. -/
theorem V5_v37 (c : Dev nD) : V5 m ρ c main_v37 = pool (F := Ideal) (h2 m c) (m ((c : Thread nD τ).loc main_arg2)) := by
  show StableHlo.after hostOps2 (W4 m ρ c) (Proc.devRef .tc main_v37) = _
  after_results
  rw [W4_v25 m ρ c, W4_arg2 m ρ c]
  first | done | rfl

/-! ## The result -/

/-- The result buffer at the last boundary is the reference's model of the arguments. -/
theorem result_eq (c : Dev nD) : W6 m ρ c (Proc.devRef .tc main_v38)
    = model (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
        (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
        (m ((c : Thread nD τ).loc main_arg19)) (m ((c : Thread nD τ).loc main_arg20)) (m ((c : Thread nD τ).loc main_arg21)) (m ((c : Thread nD τ).loc main_arg22)) :=
  (W6_arr m ρ c 5).trans ((Cert.KernelIdeal.Blocks.final2 (V5 m ρ) c).trans (by
    show refHead (F := Ideal) (V5 m ρ c main_v37) (V5 m ρ c main_arg19) (V5 m ρ c main_arg20) (V5 m ρ c main_arg21) (V5 m ρ c main_arg22) = _
    rw [V5_v37 m ρ c, V5_arg19 m ρ c, V5_arg20 m ρ c, V5_arg21 m ρ c, V5_arg22 m ρ c]
    first | done | rfl))

end Cert.KernelIdeal.Value

end
-- ==== Proof.lean ====
/-
  A two-layer GIN with a pooled head: the tiled kernel against the plain reference, at the ideal values.

  Both programs compute `out = head(pool(h₂))`, `h₂ = layer(h₁, A(h₁))`, `h₁ = layer(x, A(x))`, with `A` the neighbour
  sum over the edge list and `pool` the per-graph mean.  The kernel runs `layer` in two pallas regions over 20 blocks
  of 5000 rows (with bf16 casts around its matrix products, the identity on extended reals) and `head` in a third
  region over one block; the reference runs them as whole-array host operations.  `A` and `pool` are the same host
  operations in both programs.  A dense layer acts on rows independently, so the row blocking changes nothing:
  each region's output array is the reference's layer of the region's input arrays, and the two results are one
  function of the arguments.  No algebraic law beyond reading a matrix product as its sum is used, so the
  precondition is never opened.
-/
import proofs.«168609_j33930241638747_1_alg».proof.Defs
import proofs.«168609_j33930241638747_1_alg».proof.Proof.Gen.Kernel
import proofs.«168609_j33930241638747_1_alg».proof.Proof.Gen.Kernel.Frame
import proofs.«168609_j33930241638747_1_alg».proof.Proof.Gen.KernelIdeal
import proofs.«168609_j33930241638747_1_alg».proof.Proof.Gen.KernelIdeal.Frame
import proofs.«168609_j33930241638747_1_alg».proof.Proof.Gen.ReferenceIdeal
import proofs.«168609_j33930241638747_1_alg».proof.Proof.Gen.ReferenceIdeal.Run
import proofs.«168609_j33930241638747_1_alg».proof.Proof.Gen.Pre_finite_inputs
import proofs.«168609_j33930241638747_1_alg».proof.Proof.KernelRun
import proofs.«168609_j33930241638747_1_alg».proof.Proof.KernelValue
import proofs.«168609_j33930241638747_1_alg».proof.Proof.RefTerms
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the model of the arguments in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, (θ_run Cert.KernelIdeal.defs _ _).mono (fun r h c => ⟨(h c).1.trans (Cert.KernelIdeal.Value.result_eq m ρ c), (h c).2⟩)
    (Cert.KernelIdeal.NamedRun.run (F := Ideal) m ρ), ?_⟩
  refine (θ_run Cert.ReferenceIdeal.defs _ _).mono (fun r h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18, a19, a20, a21, a22⟩ := hagree c
  rw [Cert.ReferenceIdeal.Terms.res_eq, a0, a1, a2, a3, a4, a5, a6, a7, a8, a9, a10, a11, a12, a13, a14, a15, a16, a17, a18, a19, a20, a21, a22]
  first | done | rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
